-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x28x28 : Shape := ⟨4, ![256, 64, 28, 28]⟩
abbrev S576x256 : Shape := ⟨2, ![576, 256]⟩
abbrev S1x256 : Shape := ⟨2, ![1, 256]⟩
abbrev S256x256 : Shape := ⟨2, ![256, 256]⟩
abbrev S256x1024 : Shape := ⟨2, ![256, 1024]⟩
abbrev S1x1024 : Shape := ⟨2, ![1, 1024]⟩
abbrev S_ : Shape := ⟨0, ![]⟩

class Facts : Prop where
  bcast_S_S256x64x28x28 : S_.BroadcastsInDim S256x64x28x28 (![] : Fin 0 → Fin S256x64x28x28.rank)
  reducesTo_S256x64x28x28_S_d0_1_2_3 : S256x64x28x28.ReducesTo [0, 1, 2, 3] S_
  h_S_ : 0 < S_.numel
  bitsLt_bf16_f32 : FTy.bits .bf16 < FTy.bits .f32
  bcast_S_S576x256 : S_.BroadcastsInDim S576x256 (![] : Fin 0 → Fin S576x256.rank)
  reducesTo_S576x256_S_d0_1 : S576x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v34 : IVec S1x1024 1) : IVec S_ 1 :=
  let main_c_11 : IVec S_ 1 := constantI S_ 1 1#1
  let main_v35 : IVec S_ 1 := (fun x v => Host.reduce IntOp.andi x v reducesTo_S1x1024_S_d0_1 h_S_) main_v34 main_c_11
  let main_v36 : IVec S_ 1 := andi main_v31 main_v35
  main_v36

def fn_part1 {F : FTy → Type} [FloatOps F] (main_arg4 : FVec F S1x256 .f32) (main_arg5 : FVec F S256x1024 .bf16) (main_arg6 : FVec F S1x1024 .f32) (main_v14 : IVec S_ 1) (main_v16 : FVec F S256x256 .f32) (main_cst_4 : FVec F S_ .f32) : IVec S_ 1 :=
  let main_v17 : FVec F S256x256 .f32 := broadcastInDim S256x256 ![] bcast_S_S256x256 main_cst_4
  let main_v18 : IVec S256x256 1 := cmpf .olt main_v16 main_v17
  let main_c_5 : IVec S_ 1 := constantI S_ 1 1#1
  let main_v19 : IVec S_ 1 := (fun x v => Host.reduce IntOp.andi x v reducesTo_S256x256_S_d0_1 h_S_) main_v18 main_c_5
  let main_v20 : IVec S_ 1 := andi main_v14 main_v19
  let main_v21 : FVec F S1x256 .f32 := Host.absf main_arg4
  let main_cst_6 : FVec F S_ .f32 := constant S_ .f32 0x7F800000#32
  let main_v22 : FVec F S1x256 .f32 := broadcastInDim S1x256 ![] bcast_S_S1x256 main_cst_6
  let main_v23 : IVec S1x256 1 := cmpf .olt main_v21 main_v22
  let main_c_7 : IVec S_ 1 := constantI S_ 1 1#1
  let main_v24 : IVec S_ 1 := (fun x v => Host.reduce IntOp.andi x v reducesTo_S1x256_S_d0_1 h_S_) main_v23 main_c_7
  let main_v25 : IVec S_ 1 := andi main_v20 main_v24
  let main_v26 : FVec F S256x1024 .f32 := (extf .f32 · bitsLt_bf16_f32) main_arg5
  let main_v27 : FVec F S256x1024 .f32 := Host.absf main_v26
  let main_cst_8 : FVec F S_ .f32 := constant S_ .f32 0x7F800000#32
  let main_v28 : FVec F S256x1024 .f32 := broadcastInDim S256x1024 ![] bcast_S_S256x1024 main_cst_8
  let main_v29 : IVec S256x1024 1 := cmpf .olt main_v27 main_v28
  let main_c_9 : IVec S_ 1 := constantI S_ 1 1#1
  let main_v30 : IVec S_ 1 := (fun x v => Host.reduce IntOp.andi x v reducesTo_S256x1024_S_d0_1 h_S_) main_v29 main_c_9
  let main_v31 : IVec S_ 1 := andi main_v25 main_v30
  let main_v32 : FVec F S1x1024 .f32 := Host.absf main_arg6
  let main_cst_10 : FVec F S_ .f32 := constant S_ .f32 0x7F800000#32
  let main_v33 : FVec F S1x1024 .f32 := broadcastInDim S1x1024 ![] bcast_S_S1x1024 main_cst_10
  let main_v34 : IVec S1x1024 1 := cmpf .olt main_v32 main_v33
  fn_part2 (F := F) main_v31 main_v34

def fn {F : FTy → Type} [FloatOps F] (main_arg0 : FVec F S256x64x28x28 .f32) (main_arg1 : FVec F S576x256 .bf16) (main_arg2 : FVec F S1x256 .f32) (main_arg3 : FVec F S256x256 .bf16) (main_arg4 : FVec F S1x256 .f32) (main_arg5 : FVec F S256x1024 .bf16) (main_arg6 : FVec F S1x1024 .f32) : IVec S_ 1 :=
  let main_v0 : FVec F S256x64x28x28 .f32 := Host.absf main_arg0
  let main_cst : FVec F S_ .f32 := constant S_ .f32 0x7F800000#32
  let main_v1 : FVec F S256x64x28x28 .f32 := broadcastInDim S256x64x28x28 ![] bcast_S_S256x64x28x28 main_cst
  let main_v2 : IVec S256x64x28x28 1 := cmpf .olt main_v0 main_v1
  let main_c : IVec S_ 1 := constantI S_ 1 1#1
  let main_v3 : IVec S_ 1 := (fun x v => Host.reduce IntOp.andi x v reducesTo_S256x64x28x28_S_d0_1_2_3 h_S_) main_v2 main_c
  let main_v4 : FVec F S576x256 .f32 := (extf .f32 · bitsLt_bf16_f32) main_arg1
  let main_v5 : FVec F S576x256 .f32 := Host.absf main_v4
  let main_cst_0 : FVec F S_ .f32 := constant S_ .f32 0x7F800000#32
  let main_v6 : FVec F S576x256 .f32 := broadcastInDim S576x256 ![] bcast_S_S576x256 main_cst_0
  let main_v7 : IVec S576x256 1 := cmpf .olt main_v5 main_v6
  let main_c_1 : IVec S_ 1 := constantI S_ 1 1#1
  let main_v8 : IVec S_ 1 := (fun x v => Host.reduce IntOp.andi x v reducesTo_S576x256_S_d0_1 h_S_) main_v7 main_c_1
  let main_v9 : IVec S_ 1 := andi main_v3 main_v8
  let main_v10 : FVec F S1x256 .f32 := Host.absf main_arg2
  let main_cst_2 : FVec F S_ .f32 := constant S_ .f32 0x7F800000#32
  let main_v11 : FVec F S1x256 .f32 := broadcastInDim S1x256 ![] bcast_S_S1x256 main_cst_2
  let main_v12 : IVec S1x256 1 := cmpf .olt main_v10 main_v11
  let main_c_3 : IVec S_ 1 := constantI S_ 1 1#1
  let main_v13 : IVec S_ 1 := (fun x v => Host.reduce IntOp.andi x v reducesTo_S1x256_S_d0_1 h_S_) main_v12 main_c_3
  let main_v14 : IVec S_ 1 := andi main_v9 main_v13
  let main_v15 : FVec F S256x256 .f32 := (extf .f32 · bitsLt_bf16_f32) main_arg3
  let main_v16 : FVec F S256x256 .f32 := Host.absf main_v15
  let main_cst_4 : FVec F S_ .f32 := constant S_ .f32 0x7F800000#32
  fn_part1 (F := F) main_arg4 main_arg5 main_arg6 main_v14 main_v16 main_cst_4
-- ==== Kernel.lean ====
abbrev S256x64x28x28 : Shape := ⟨4, ![256, 64, 28, 28]⟩
abbrev S576x256 : Shape := ⟨2, ![576, 256]⟩
abbrev S1x256 : Shape := ⟨2, ![1, 256]⟩
abbrev S256x256 : Shape := ⟨2, ![256, 256]⟩
abbrev S256x1024 : Shape := ⟨2, ![256, 1024]⟩
abbrev S1x1024 : Shape := ⟨2, ![1, 1024]⟩
abbrev S256x28x28x64 : Shape := ⟨4, ![256, 28, 28, 64]⟩
abbrev S_ : Shape := ⟨0, ![]⟩
abbrev S256x32x30x64 : Shape := ⟨4, ![256, 32, 30, 64]⟩
abbrev S256x960x64 : Shape := ⟨3, ![256, 960, 64]⟩
abbrev S840 : Shape := ⟨1, ![840]⟩
abbrev S8x8 : Shape := ⟨2, ![8, 8]⟩
abbrev S1x840 : Shape := ⟨2, ![1, 840]⟩
abbrev S8x1x8x1 : Shape := ⟨4, ![8, 1, 8, 1]⟩
abbrev S1x1x1x840 : Shape := ⟨4, ![1, 1, 1, 840]⟩
abbrev S8x1x8x840 : Shape := ⟨4, ![8, 1, 8, 840]⟩
abbrev S8x6720 : Shape := ⟨2, ![8, 6720]⟩
abbrev S256x1000 : Shape := ⟨2, ![256, 1000]⟩
abbrev S8x960x64 : Shape := ⟨3, ![8, 960, 64]⟩
abbrev S8x256 : Shape := ⟨2, ![8, 256]⟩
abbrev S1x960x64 : Shape := ⟨3, ![1, 960, 64]⟩
abbrev S960x64 : Shape := ⟨2, ![960, 64]⟩
abbrev S900x64 : Shape := ⟨2, ![900, 64]⟩
abbrev S900x192 : Shape := ⟨2, ![900, 192]⟩
abbrev S840x192 : Shape := ⟨2, ![840, 192]⟩
abbrev S840x576 : Shape := ⟨2, ![840, 576]⟩
abbrev S840x256 : Shape := ⟨2, ![840, 256]⟩
abbrev S6720x256 : Shape := ⟨2, ![6720, 256]⟩
abbrev S128x256 : Shape := ⟨2, ![128, 256]⟩
abbrev S128x1024 : Shape := ⟨2, ![128, 1024]⟩

abbrev nBuf : Space → Nat
  | .hbm => 63
  | .vmem => 17
  | .smem => 0
  | _ => 0

abbrev bufTy : (tb : Table) → Fin (tcTables nBuf tb) → BufTy
  | .hbm, ⟨0, _⟩ => ⟨S256x64x28x28, .f32⟩
  | .hbm, ⟨1, _⟩ => ⟨S576x256, .bf16⟩
  | .hbm, ⟨2, _⟩ => ⟨S1x256, .f32⟩
  | .hbm, ⟨3, _⟩ => ⟨S256x256, .bf16⟩
  | .hbm, ⟨4, _⟩ => ⟨S1x256, .f32⟩
  | .hbm, ⟨5, _⟩ => ⟨S256x1024, .bf16⟩
  | .hbm, ⟨6, _⟩ => ⟨S1x1024, .f32⟩
  | .hbm, ⟨7, _⟩ => ⟨S256x28x28x64, .f32⟩
  | .hbm, ⟨8, _⟩ => ⟨S_, .i32⟩
  | .hbm, ⟨9, _⟩ => ⟨S_, .f32⟩
  | .hbm, ⟨10, _⟩ => ⟨S256x32x30x64, .f32⟩
  | .hbm, ⟨11, _⟩ => ⟨S256x32x30x64, .bf16⟩
  | .hbm, ⟨12, _⟩ => ⟨S256x960x64, .bf16⟩
  | .hbm, ⟨13, _⟩ => ⟨S840, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S840, .i32⟩
  | .hbm, ⟨21, _⟩ => ⟨S840, .i32⟩
  | .hbm, ⟨22, _⟩ => ⟨S_, .i32⟩
  | .hbm, ⟨23, _⟩ => ⟨S840, .i32⟩
  | .hbm, ⟨24, _⟩ => ⟨S840, .i1⟩
  | .hbm, ⟨25, _⟩ => ⟨S_, .i32⟩
  | .hbm, ⟨26, _⟩ => ⟨S840, .i32⟩
  | .hbm, ⟨27, _⟩ => ⟨S840, .i1⟩
  | .hbm, ⟨28, _⟩ => ⟨S_, .i32⟩
  | .hbm, ⟨29, _⟩ => ⟨S_, .i1⟩
  | .hbm, ⟨30, _⟩ => ⟨S840, .i1⟩
  | .hbm, ⟨31, _⟩ => ⟨S840, .i1⟩
  | .hbm, ⟨32, _⟩ => ⟨S840, .i1⟩
  | .hbm, ⟨33, _⟩ => ⟨S840, .i32⟩
  | .hbm, ⟨34, _⟩ => ⟨S840, .i32⟩
  | .hbm, ⟨35, _⟩ => ⟨S840, .i32⟩
  | .hbm, ⟨36, _⟩ => ⟨S_, .i32⟩
  | .hbm, ⟨37, _⟩ => ⟨S840, .i32⟩
  | .hbm, ⟨38, _⟩ => ⟨S840, .i1⟩
  | .hbm, ⟨39, _⟩ => ⟨S_, .f32⟩
  | .hbm, ⟨40, _⟩ => ⟨S_, .f32⟩
  | .hbm, ⟨41, _⟩ => ⟨S840, .f32⟩
  | .hbm, ⟨42, _⟩ => ⟨S840, .f32⟩
  | .hbm, ⟨43, _⟩ => ⟨S840, .f32⟩
  | .hbm, ⟨44, _⟩ => ⟨S8x8, .i32⟩
  | .hbm, ⟨45, _⟩ => ⟨S8x8, .i32⟩
  | .hbm, ⟨46, _⟩ => ⟨S_, .i32⟩
  | .hbm, ⟨47, _⟩ => ⟨S8x8, .i32⟩
  | .hbm, ⟨48, _⟩ => ⟨S8x8, .i32⟩
  | .hbm, ⟨49, _⟩ => ⟨S8x8, .i1⟩
  | .hbm, ⟨50, _⟩ => ⟨S8x8, .f32⟩
  | .hbm, ⟨51, _⟩ => ⟨S840, .f32⟩
  | .hbm, ⟨52, _⟩ => ⟨S1x840, .f32⟩
  | .hbm, ⟨53, _⟩ => ⟨S8x1x8x1, .f32⟩
  | .hbm, ⟨54, _⟩ => ⟨S1x1x1x840, .f32⟩
  | .hbm, ⟨55, _⟩ => ⟨S8x1x8x840, .f32⟩
  | .hbm, ⟨56, _⟩ => ⟨S8x1x8x840, .f32⟩
  | .hbm, ⟨57, _⟩ => ⟨S8x1x8x840, .f32⟩
  | .hbm, ⟨58, _⟩ => ⟨S8x6720, .f32⟩
  | .hbm, ⟨59, _⟩ => ⟨S256x256, .f32⟩
  | .hbm, ⟨60, _⟩ => ⟨S256x1024, .f32⟩
  | .hbm, ⟨61, _⟩ => ⟨S256x256, .f32⟩
  | .hbm, ⟨62, _⟩ => ⟨S256x1000, .f32⟩
  | .local _ .vmem, ⟨0, _⟩ => ⟨S8x960x64, .bf16⟩
  | .local _ .vmem, ⟨1, _⟩ => ⟨S8x960x64, .bf16⟩
  | .local _ .vmem, ⟨2, _⟩ => ⟨S8x6720, .f32⟩
  | .local _ .vmem, ⟨3, _⟩ => ⟨S576x256, .bf16⟩
  | .local _ .vmem, ⟨4, _⟩ => ⟨S1x256, .f32⟩
  | .local _ .vmem, ⟨5, _⟩ => ⟨S8x256, .f32⟩
  | .local _ .vmem, ⟨6, _⟩ => ⟨S8x256, .f32⟩
  | .local _ .vmem, ⟨7, _⟩ => ⟨S128x256, .f32⟩
  | .local _ .vmem, ⟨8, _⟩ => ⟨S128x256, .f32⟩
  | .local _ .vmem, ⟨9, _⟩ => ⟨S256x256, .bf16⟩
  | .local _ .vmem, ⟨10, _⟩ => ⟨S1x256, .f32⟩
  | .local _ .vmem, ⟨11, _⟩ => ⟨S256x1024, .bf16⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S128x256, .f32⟩
  | .local _ .vmem, ⟨16, _⟩ => ⟨S128x256, .f32⟩
  | _, _ => ⟨S256x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_call1_v0 : Ref sig .tc := ⟨.hbm, 15, rfl⟩
abbrev main_call0_call1_c : Ref sig .tc := ⟨.hbm, 16, rfl⟩
abbrev main_call0_call1_v1 : Ref sig .tc := ⟨.hbm, 17, rfl⟩
abbrev main_call0_call1_c_0 : Ref sig .tc := ⟨.hbm, 18, rfl⟩
abbrev main_call0_call1_v2 : Ref sig .tc := ⟨.hbm, 19, rfl⟩
abbrev main_call0_call1_v3 : Ref sig .tc := ⟨.hbm, 20, rfl⟩
abbrev main_call0_call1_v4 : Ref sig .tc := ⟨.hbm, 21, rfl⟩
abbrev main_call0_call1_c_1 : Ref sig .tc := ⟨.hbm, 22, rfl⟩
abbrev main_call0_call1_v5 : Ref sig .tc := ⟨.hbm, 23, rfl⟩
abbrev main_call0_call1_v6 : Ref sig .tc := ⟨.hbm, 24, rfl⟩
abbrev main_call0_call1_c_2 : Ref sig .tc := ⟨.hbm, 25, rfl⟩
abbrev main_call0_call1_v7 : Ref sig .tc := ⟨.hbm, 26, rfl⟩
abbrev main_call0_call1_v8 : Ref sig .tc := ⟨.hbm, 27, rfl⟩
abbrev main_call0_call1_c_3 : Ref sig .tc := ⟨.hbm, 28, rfl⟩
abbrev main_call0_call1_v9 : Ref sig .tc := ⟨.hbm, 29, rfl⟩
abbrev main_call0_call1_v10 : Ref sig .tc := ⟨.hbm, 30, rfl⟩
abbrev main_call0_call1_v11 : Ref sig .tc := ⟨.hbm, 31, rfl⟩
abbrev main_call0_call1_v12 : Ref sig .tc := ⟨.hbm, 32, rfl⟩
abbrev main_call0_call1_v13 : Ref sig .tc := ⟨.hbm, 33, rfl⟩
abbrev main_call0_call1_v14 : Ref sig .tc := ⟨.hbm, 34, rfl⟩
abbrev main_call0_v5 : Ref sig .tc := ⟨.hbm, 35, rfl⟩
abbrev main_call0_c_1 : Ref sig .tc := ⟨.hbm, 36, rfl⟩
abbrev main_call0_v6 : Ref sig .tc := ⟨.hbm, 37, rfl⟩
abbrev main_call0_v7 : Ref sig .tc := ⟨.hbm, 38, rfl⟩
abbrev main_call0_cst : Ref sig .tc := ⟨.hbm, 39, rfl⟩
abbrev main_call0_cst_2 : Ref sig .tc := ⟨.hbm, 40, rfl⟩
abbrev main_call0_call2_v0 : Ref sig .tc := ⟨.hbm, 41, rfl⟩
abbrev main_call0_call2_v1 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_c_3 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_call0_call3_v0 : Ref sig .tc := ⟨.hbm, 53, rfl⟩
abbrev main_call0_call3_v1 : Ref sig .tc := ⟨.hbm, 54, rfl⟩
abbrev main_call0_call3_v2 : Ref sig .tc := ⟨.hbm, 55, rfl⟩
abbrev main_call0_call3_v3 : Ref sig .tc := ⟨.hbm, 56, rfl⟩
abbrev main_call0_call3_v4 : Ref sig .tc := ⟨.hbm, 57, rfl⟩
abbrev main_call0_v17 : Ref sig .tc := ⟨.hbm, 58, rfl⟩
abbrev main_call0_v18 : Ref sig .tc := ⟨.hbm, 59, rfl⟩
abbrev main_call0_v19_0 : Ref sig .tc := ⟨.hbm, 60, rfl⟩
abbrev main_v0_1 : Ref sig .tc := ⟨.hbm, 61, rfl⟩
abbrev main_v0_0 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x960x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6720 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S256x64x28x28_S256x28x28x64_0_2_3_1 : S256x64x28x28.Transposes [0, 2, 3, 1] S256x28x28x64
  pads_S256x28x28x64_S256x32x30x64_000_130_110_000 : S256x28x28x64.Pads (![0, 1, 1, 0] : Fin 4 → Nat) ![0, 3, 1, 0] ![0, 0, 0, 0] S256x32x30x64
  h_S_ : 0 < S_.numel
  bitsLt_bf16_f32 : FTy.bits .bf16 < FTy.bits .f32
  shapeCasts_S256x32x30x64_S256x960x64 : S256x32x30x64.ShapeCasts S256x960x64
  bcast_S_S840 : S_.BroadcastsInDim S840 (![] : Fin 0 → Fin S840.rank)
  bcast_S_S8x8 : S_.BroadcastsInDim S8x8 (![] : Fin 0 → Fin S8x8.rank)
  shapeCasts_S840_S1x840 : S840.ShapeCasts S1x840
  bcast_S8x8_S8x1x8x1_0_2 : S8x8.BroadcastsInDim S8x1x8x1 (![0, 2] : Fin 2 → Fin S8x1x8x1.rank)
  bcast_S1x840_S1x1x1x840_1_3 : S1x840.BroadcastsInDim S1x1x1x840 (![1, 3] : Fin 2 → Fin S1x1x1x840.rank)
  bcast_S8x1x8x1_S8x1x8x840_0_1_2_3 : S8x1x8x1.BroadcastsInDim S8x1x8x840 (![0, 1, 2, 3] : Fin 4 → Fin S8x1x8x840.rank)
  bcast_S1x1x1x840_S8x1x8x840_0_1_2_3 : S1x1x1x840.BroadcastsInDim S8x1x8x840 (![0, 1, 2, 3] : Fin 4 → Fin S8x1x8x840.rank)
  shapeCasts_S8x1x8x840_S8x6720 : S8x1x8x840.ShapeCasts S8x6720
  slices_S256x1024_S256x1000_0_0 : S256x1024.Slices ![0, 0] S256x1000
  inb_S8x960x64_S1x960x64_0_0_0 : ∀ a, (![0, 0, 0] : Fin 3 → Nat) a + S1x960x64.size a ≤ S8x960x64.size a
  h_S1x960x64 : 0 < S1x960x64.numel
  shapeCasts_S1x960x64_S960x64 : S1x960x64.ShapeCasts S960x64
  slices_S960x64_o0_0_S900x64 : S960x64.Slices ![0, 0] S900x64
  slices_S960x64_o1_0_S900x64 : S960x64.Slices ![1, 0] S900x64
  slices_S960x64_o2_0_S900x64 : S960x64.Slices ![2, 0] S900x64
  concatenates_S900x64_S900x64_S900x64_S900x192_d1 : Shape.Concatenates [S900x64, S900x64, S900x64] S900x192 1
  slices_S900x192_o0_0_S840x192 : S900x192.Slices ![0, 0] S840x192
  slices_S900x192_o30_0_S840x192 : S900x192.Slices ![30, 0] S840x192
  slices_S900x192_o60_0_S840x192 : S900x192.Slices ![60, 0] S840x192
  concatenates_S840x192_S840x192_S840x192_S840x576_d1 : Shape.Concatenates [S840x192, S840x192, S840x192] S840x576 1
  inb_S576x256_S576x256_0_0 : ∀ a, (![0, 0] : Fin 2 → Nat) a + S576x256.size a ≤ S576x256.size a
  h_S576x256 : 0 < S576x256.numel
  inb_S1x256_S1x256_0_0 : ∀ a, (![0, 0] : Fin 2 → Nat) a + S1x256.size a ≤ S1x256.size a
  h_S1x256 : 0 < S1x256.numel
  broadcasts_S1x256_S840x256 : S1x256.Broadcasts S840x256
  inb_S8x960x64_S1x960x64_1_0_0 : ∀ a, (![1, 0, 0] : Fin 3 → Nat) a + S1x960x64.size a ≤ S8x960x64.size a
  inb_S8x960x64_S1x960x64_2_0_0 : ∀ a, (![2, 0, 0] : Fin 3 → Nat) a + S1x960x64.size a ≤ S8x960x64.size a
  inb_S8x960x64_S1x960x64_3_0_0 : ∀ a, (![3, 0, 0] : Fin 3 → Nat) a + S1x960x64.size a ≤ S8x960x64.size a
  inb_S8x960x64_S1x960x64_4_0_0 : ∀ a, (![4, 0, 0] : Fin 3 → Nat) a + S1x960x64.size a ≤ S8x960x64.size a
  inb_S8x960x64_S1x960x64_5_0_0 : ∀ a, (![5, 0, 0] : Fin 3 → Nat) a + S1x960x64.size a ≤ S8x960x64.size a
  inb_S8x960x64_S1x960x64_6_0_0 : ∀ a, (![6, 0, 0] : Fin 3 → Nat) a + S1x960x64.size a ≤ S8x960x64.size a
  inb_S8x960x64_S1x960x64_7_0_0 : ∀ a, (![7, 0, 0] : Fin 3 → Nat) a + S1x960x64.size a ≤ S8x960x64.size a
  concatenates_S840x256_S840x256_S840x256_S840x256_S840x256_S840x256_S840x256_S840x256_S6720x256_d0 : Shape.Concatenates [S840x256, S840x256, S840x256, S840x256, S840x256, S840x256, S840x256, S840x256] S6720x256 0
  inb_S8x6720_S8x6720_0_0 : ∀ a, (![0, 0] : Fin 2 → Nat) a + S8x6720.size a ≤ S8x6720.size a
  h_S8x6720 : 0 < S8x6720.numel
  shapeCasts_S8x6720_S8x6720 : S8x6720.ShapeCasts S8x6720
  inb_S8x256_S8x256_0_0 : ∀ a, (![0, 0] : Fin 2 → Nat) a + S8x256.size a ≤ S8x256.size a
  h_S8x256 : 0 < S8x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  broadcasts_S1x256_S128x256 : S1x256.Broadcasts S128x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S840x576_S576x256_S840x256_1_0_0_1_n_n_wf : DotDims.WF S840x576 S576x256 S840x256 [1] [0] [0] [1] [] []
  dot_S8x6720_S6720x256_S8x256_1_0_0_1_n_n_wf : DotDims.WF S8x6720 S6720x256 S8x256 [1] [0] [0] [1] [] []
  dot_S128x256_S256x256_S128x256_1_0_0_1_n_n_wf : DotDims.WF S128x256 S256x256 S128x256 [1] [0] [0] [1] [] []
  dot_S128x256_S256x1024_S128x1024_1_0_0_1_n_n_wf : DotDims.WF S128x256 S256x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x960x64.size a ≤ S256x960x64.size a
  hwx0_0 : ∀ i : grid0.Coords, EltTy.bits .bf16 = 32 ∨ (Rect.block (s := S256x960x64) S8x960x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x6720.size a ≤ S8x6720.size a
  hwx0_1 : ∀ i : grid0.Coords, EltTy.bits .f32 = 32 ∨ (Rect.block (s := S8x6720) S8x6720.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576x256.size a ≤ S576x256.size a
  hwx0_2 : ∀ i : grid0.Coords, EltTy.bits .bf16 = 32 ∨ (Rect.block (s := S576x256) S576x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S256x256.size a
  hwx0_4 : ∀ i : grid0.Coords, EltTy.bits .f32 = 32 ∨ (Rect.block (s := S256x256) S8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S256x256.size a
  hwx1_0 : ∀ i : grid1.Coords, EltTy.bits .f32 = 32 ∨ (Rect.block (s := S256x256) S128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S256x1024.size a
  hwx1_5 : ∀ i : grid1.Coords, EltTy.bits .f32 = 32 ∨ (Rect.block (s := S256x1024) S128x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S256x256.size a
  hwx1_6 : ∀ i : grid1.Coords, EltTy.bits .f32 = 32 ∨ (Rect.block (s := S256x256) S128x256.size (cc1_transform_6 i) (hinb1_6 i)).WholeWords (EltTy.packing .f32)

variable [Facts₀]

def dot_S840x576_S576x256_S840x256_1_0_0_1_n_n : DotDims S840x576 S576x256 S840x256 where
  lhsContracting := [1]
  rhsContracting := [0]
  lhsNonContracting := [0]
  rhsNonContracting := [1]
  lhsBatch := []
  rhsBatch := []
  wf := dot_S840x576_S576x256_S840x256_1_0_0_1_n_n_wf
def dot_S8x6720_S6720x256_S8x256_1_0_0_1_n_n : DotDims S8x6720 S6720x256 S8x256 where
  lhsContracting := [1]
  rhsContracting := [0]
  lhsNonContracting := [0]
  rhsNonContracting := [1]
  lhsBatch := []
  rhsBatch := []
  wf := dot_S8x6720_S6720x256_S8x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

abbrev win0_0 : Pipeline.Window sig grid0 :=
  Pipeline.Window.ofSpec (Memref.whole main_call0_v3) S8x960x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S8x6720.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S576x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v18) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v18) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v19_0) S128x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_1) S128x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x64x28x28 : Shape := ⟨4, ![256, 64, 28, 28]⟩
abbrev S576x256 : Shape := ⟨2, ![576, 256]⟩
abbrev S1x256 : Shape := ⟨2, ![1, 256]⟩
abbrev S256x256 : Shape := ⟨2, ![256, 256]⟩
abbrev S256x1024 : Shape := ⟨2, ![256, 1024]⟩
abbrev S1x1024 : Shape := ⟨2, ![1, 1024]⟩
abbrev S256x28x28x64 : Shape := ⟨4, ![256, 28, 28, 64]⟩
abbrev S_ : Shape := ⟨0, ![]⟩
abbrev S256x32x30x64 : Shape := ⟨4, ![256, 32, 30, 64]⟩
abbrev S256x960x64 : Shape := ⟨3, ![256, 960, 64]⟩
abbrev S840 : Shape := ⟨1, ![840]⟩
abbrev S1x840 : Shape := ⟨2, ![1, 840]⟩
abbrev S256x8x1024 : Shape := ⟨3, ![256, 8, 1024]⟩
abbrev S256x8x256 : Shape := ⟨3, ![256, 8, 256]⟩
abbrev S256x1x1000 : Shape := ⟨3, ![256, 1, 1000]⟩
abbrev S256x1000 : Shape := ⟨2, ![256, 1000]⟩
abbrev S256x1x256 : Shape := ⟨3, ![256, 1, 256]⟩
abbrev S1x960x64 : Shape := ⟨3, ![1, 960, 64]⟩
abbrev S1x8x1024 : Shape := ⟨3, ![1, 8, 1024]⟩
abbrev S1x8x256 : Shape := ⟨3, ![1, 8, 256]⟩
abbrev S960x64 : Shape := ⟨2, ![960, 64]⟩
abbrev S900x64 : Shape := ⟨2, ![900, 64]⟩
abbrev S900x192 : Shape := ⟨2, ![900, 192]⟩
abbrev S840x192 : Shape := ⟨2, ![840, 192]⟩
abbrev S840x576 : Shape := ⟨2, ![840, 576]⟩
abbrev S840x256 : Shape := ⟨2, ![840, 256]⟩
abbrev S8x840 : Shape := ⟨2, ![8, 840]⟩
abbrev S8x256 : Shape := ⟨2, ![8, 256]⟩
abbrev S8x1024 : Shape := ⟨2, ![8, 1024]⟩

abbrev nBuf : Space → Nat
  | .hbm => 52
  | .vmem => 13
  | .smem => 0
  | _ => 0

abbrev bufTy : (tb : Table) → Fin (tcTables nBuf tb) → BufTy
  | .hbm, ⟨0, _⟩ => ⟨S256x64x28x28, .f32⟩
  | .hbm, ⟨1, _⟩ => ⟨S576x256, .bf16⟩
  | .hbm, ⟨2, _⟩ => ⟨S1x256, .f32⟩
  | .hbm, ⟨3, _⟩ => ⟨S256x256, .bf16⟩
  | .hbm, ⟨4, _⟩ => ⟨S1x256, .f32⟩
  | .hbm, ⟨5, _⟩ => ⟨S256x1024, .bf16⟩
  | .hbm, ⟨6, _⟩ => ⟨S1x1024, .f32⟩
  | .hbm, ⟨7, _⟩ => ⟨S256x28x28x64, .f32⟩
  | .hbm, ⟨8, _⟩ => ⟨S_, .i32⟩
  | .hbm, ⟨9, _⟩ => ⟨S_, .f32⟩
  | .hbm, ⟨10, _⟩ => ⟨S256x32x30x64, .f32⟩
  | .hbm, ⟨11, _⟩ => ⟨S256x32x30x64, .bf16⟩
  | .hbm, ⟨12, _⟩ => ⟨S256x960x64, .bf16⟩
  | .hbm, ⟨13, _⟩ => ⟨S840, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S840, .i32⟩
  | .hbm, ⟨21, _⟩ => ⟨S840, .i32⟩
  | .hbm, ⟨22, _⟩ => ⟨S_, .i32⟩
  | .hbm, ⟨23, _⟩ => ⟨S840, .i32⟩
  | .hbm, ⟨24, _⟩ => ⟨S840, .i1⟩
  | .hbm, ⟨25, _⟩ => ⟨S_, .i32⟩
  | .hbm, ⟨26, _⟩ => ⟨S840, .i32⟩
  | .hbm, ⟨27, _⟩ => ⟨S840, .i1⟩
  | .hbm, ⟨28, _⟩ => ⟨S_, .i32⟩
  | .hbm, ⟨29, _⟩ => ⟨S_, .i1⟩
  | .hbm, ⟨30, _⟩ => ⟨S840, .i1⟩
  | .hbm, ⟨31, _⟩ => ⟨S840, .i1⟩
  | .hbm, ⟨32, _⟩ => ⟨S840, .i1⟩
  | .hbm, ⟨33, _⟩ => ⟨S840, .i32⟩
  | .hbm, ⟨34, _⟩ => ⟨S840, .i32⟩
  | .hbm, ⟨35, _⟩ => ⟨S840, .i32⟩
  | .hbm, ⟨36, _⟩ => ⟨S_, .i32⟩
  | .hbm, ⟨37, _⟩ => ⟨S840, .i32⟩
  | .hbm, ⟨38, _⟩ => ⟨S840, .i1⟩
  | .hbm, ⟨39, _⟩ => ⟨S_, .f32⟩
  | .hbm, ⟨40, _⟩ => ⟨S_, .f32⟩
  | .hbm, ⟨41, _⟩ => ⟨S840, .f32⟩
  | .hbm, ⟨42, _⟩ => ⟨S840, .f32⟩
  | .hbm, ⟨43, _⟩ => ⟨S840, .f32⟩
  | .hbm, ⟨44, _⟩ => ⟨S840, .f32⟩
  | .hbm, ⟨45, _⟩ => ⟨S1x840, .f32⟩
  | .hbm, ⟨46, _⟩ => ⟨S256x8x1024, .f32⟩
  | .hbm, ⟨47, _⟩ => ⟨S256x8x256, .f32⟩
  | .hbm, ⟨48, _⟩ => ⟨S256x1x1000, .f32⟩
  | .hbm, ⟨49, _⟩ => ⟨S256x1000, .f32⟩
  | .hbm, ⟨50, _⟩ => ⟨S256x1x256, .f32⟩
  | .hbm, ⟨51, _⟩ => ⟨S256x256, .f32⟩
  | .local _ .vmem, ⟨0, _⟩ => ⟨S1x960x64, .bf16⟩
  | .local _ .vmem, ⟨1, _⟩ => ⟨S1x960x64, .bf16⟩
  | .local _ .vmem, ⟨2, _⟩ => ⟨S1x840, .f32⟩
  | .local _ .vmem, ⟨3, _⟩ => ⟨S576x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S256x1024, .bf16⟩
  | .local _ .vmem, ⟨8, _⟩ => ⟨S1x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x256, .f32⟩
  | .local _ .vmem, ⟨12, _⟩ => ⟨S1x8x256, .f32⟩
  | _, _ => ⟨S256x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_call1_v0 : Ref sig .tc := ⟨.hbm, 15, rfl⟩
abbrev main_call0_call1_c : Ref sig .tc := ⟨.hbm, 16, rfl⟩
abbrev main_call0_call1_v1 : Ref sig .tc := ⟨.hbm, 17, rfl⟩
abbrev main_call0_call1_c_0 : Ref sig .tc := ⟨.hbm, 18, rfl⟩
abbrev main_call0_call1_v2 : Ref sig .tc := ⟨.hbm, 19, rfl⟩
abbrev main_call0_call1_v3 : Ref sig .tc := ⟨.hbm, 20, rfl⟩
abbrev main_call0_call1_v4 : Ref sig .tc := ⟨.hbm, 21, rfl⟩
abbrev main_call0_call1_c_1 : Ref sig .tc := ⟨.hbm, 22, rfl⟩
abbrev main_call0_call1_v5 : Ref sig .tc := ⟨.hbm, 23, rfl⟩
abbrev main_call0_call1_v6 : Ref sig .tc := ⟨.hbm, 24, rfl⟩
abbrev main_call0_call1_c_2 : Ref sig .tc := ⟨.hbm, 25, rfl⟩
abbrev main_call0_call1_v7 : Ref sig .tc := ⟨.hbm, 26, rfl⟩
abbrev main_call0_call1_v8 : Ref sig .tc := ⟨.hbm, 27, rfl⟩
abbrev main_call0_call1_c_3 : Ref sig .tc := ⟨.hbm, 28, rfl⟩
abbrev main_call0_call1_v9 : Ref sig .tc := ⟨.hbm, 29, rfl⟩
abbrev main_call0_call1_v10 : Ref sig .tc := ⟨.hbm, 30, rfl⟩
abbrev main_call0_call1_v11 : Ref sig .tc := ⟨.hbm, 31, rfl⟩
abbrev main_call0_call1_v12 : Ref sig .tc := ⟨.hbm, 32, rfl⟩
abbrev main_call0_call1_v13 : Ref sig .tc := ⟨.hbm, 33, rfl⟩
abbrev main_call0_call1_v14 : Ref sig .tc := ⟨.hbm, 34, rfl⟩
abbrev main_call0_v5 : Ref sig .tc := ⟨.hbm, 35, rfl⟩
abbrev main_call0_c_1 : Ref sig .tc := ⟨.hbm, 36, rfl⟩
abbrev main_call0_v6 : Ref sig .tc := ⟨.hbm, 37, rfl⟩
abbrev main_call0_v7 : Ref sig .tc := ⟨.hbm, 38, rfl⟩
abbrev main_call0_cst : Ref sig .tc := ⟨.hbm, 39, rfl⟩
abbrev main_call0_cst_2 : Ref sig .tc := ⟨.hbm, 40, rfl⟩
abbrev main_call0_call2_v0 : Ref sig .tc := ⟨.hbm, 41, rfl⟩
abbrev main_call0_call2_v1 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11_0 : Ref sig .tc := ⟨.hbm, 46, rfl⟩
abbrev main_call0_v11_1 : Ref sig .tc := ⟨.hbm, 47, rfl⟩
abbrev main_call0_v12 : Ref sig .tc := ⟨.hbm, 48, rfl⟩
abbrev main_v0_0 : Ref sig .tc := ⟨.hbm, 49, rfl⟩
abbrev main_call0_v14 : Ref sig .tc := ⟨.hbm, 50, rfl⟩
abbrev main_v0_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x960x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x64x28x28_S256x28x28x64_0_2_3_1 : S256x64x28x28.Transposes [0, 2, 3, 1] S256x28x28x64
  pads_S256x28x28x64_S256x32x30x64_000_130_110_000 : S256x28x28x64.Pads (![0, 1, 1, 0] : Fin 4 → Nat) ![0, 3, 1, 0] ![0, 0, 0, 0] S256x32x30x64
  h_S_ : 0 < S_.numel
  bitsLt_bf16_f32 : FTy.bits .bf16 < FTy.bits .f32
  shapeCasts_S256x32x30x64_S256x960x64 : S256x32x30x64.ShapeCasts S256x960x64
  bcast_S_S840 : S_.BroadcastsInDim S840 (![] : Fin 0 → Fin S840.rank)
  shapeCasts_S840_S1x840 : S840.ShapeCasts S1x840
  slices_S256x8x1024_S256x1x1000_0_0_0 : S256x8x1024.Slices ![0, 0, 0] S256x1x1000
  shapeCasts_S256x1x1000_S256x1000 : S256x1x1000.ShapeCasts S256x1000
  slices_S256x8x256_S256x1x256_0_0_0 : S256x8x256.Slices ![0, 0, 0] S256x1x256
  shapeCasts_S256x1x256_S256x256 : S256x1x256.ShapeCasts S256x256
  inb_S1x960x64_S1x960x64_0_0_0 : ∀ a, (![0, 0, 0] : Fin 3 → Nat) a + S1x960x64.size a ≤ S1x960x64.size a
  h_S1x960x64 : 0 < S1x960x64.numel
  shapeCasts_S1x960x64_S960x64 : S1x960x64.ShapeCasts S960x64
  slices_S960x64_o0_0_S900x64 : S960x64.Slices ![0, 0] S900x64
  slices_S960x64_o1_0_S900x64 : S960x64.Slices ![1, 0] S900x64
  slices_S960x64_o2_0_S900x64 : S960x64.Slices ![2, 0] S900x64
  concatenates_S900x64_S900x64_S900x64_S900x192_d1 : Shape.Concatenates [S900x64, S900x64, S900x64] S900x192 1
  slices_S900x192_o0_0_S840x192 : S900x192.Slices ![0, 0] S840x192
  slices_S900x192_o30_0_S840x192 : S900x192.Slices ![30, 0] S840x192
  slices_S900x192_o60_0_S840x192 : S900x192.Slices ![60, 0] S840x192
  concatenates_S840x192_S840x192_S840x192_S840x576_d1 : Shape.Concatenates [S840x192, S840x192, S840x192] S840x576 1
  inb_S576x256_S576x256_0_0 : ∀ a, (![0, 0] : Fin 2 → Nat) a + S576x256.size a ≤ S576x256.size a
  h_S576x256 : 0 < S576x256.numel
  inb_S1x256_S1x256_0_0 : ∀ a, (![0, 0] : Fin 2 → Nat) a + S1x256.size a ≤ S1x256.size a
  h_S1x256 : 0 < S1x256.numel
  broadcasts_S1x256_S840x256 : S1x256.Broadcasts S840x256
  inb_S1x840_S1x840_0_0 : ∀ a, (![0, 0] : Fin 2 → Nat) a + S1x840.size a ≤ S1x840.size a
  h_S1x840 : 0 < S1x840.numel
  shapeCasts_S1x840_S1x840 : S1x840.ShapeCasts S1x840
  broadcasts_S1x840_S8x840 : S1x840.Broadcasts S8x840
  inb_S256x256_S256x256_0_0 : ∀ a, (![0, 0] : Fin 2 → Nat) a + S256x256.size a ≤ S256x256.size a
  h_S256x256 : 0 < S256x256.numel
  broadcasts_S1x256_S8x256 : S1x256.Broadcasts S8x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  broadcasts_S1x1024_S8x1024 : S1x1024.Broadcasts S8x1024
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  dot_S840x576_S576x256_S840x256_1_0_0_1_n_n_wf : DotDims.WF S840x576 S576x256 S840x256 [1] [0] [0] [1] [] []
  dot_S8x840_S840x256_S8x256_1_0_0_1_n_n_wf : DotDims.WF S8x840 S840x256 S8x256 [1] [0] [0] [1] [] []
  dot_S8x256_S256x256_S8x256_1_0_0_1_n_n_wf : DotDims.WF S8x256 S256x256 S8x256 [1] [0] [0] [1] [] []
  dot_S8x256_S256x1024_S8x1024_1_0_0_1_n_n_wf : DotDims.WF S8x256 S256x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x960x64.size a ≤ S256x960x64.size a
  hwx0_0 : ∀ i : grid0.Coords, EltTy.bits .bf16 = 32 ∨ (Rect.block (s := S256x960x64) S1x960x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x840.size a ≤ S1x840.size a
  hwx0_1 : ∀ i : grid0.Coords, EltTy.bits .f32 = 32 ∨ (Rect.block (s := S1x840) S1x840.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576x256.size a ≤ S576x256.size a
  hwx0_2 : ∀ i : grid0.Coords, EltTy.bits .bf16 = 32 ∨ (Rect.block (s := S576x256) S576x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .bf16 = 32 ∨ (Rect.block (s := S256x1024) S256x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x1024.size a ≤ S256x8x1024.size a
  hwx0_8 : ∀ i : grid0.Coords, EltTy.bits .f32 = 32 ∨ (Rect.block (s := S256x8x1024) S1x8x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x256.size a ≤ S256x8x256.size a
  hwx0_9 : ∀ i : grid0.Coords, EltTy.bits .f32 = 32 ∨ (Rect.block (s := S256x8x256) S1x8x256.size (cc0_transform_9 i) (hinb0_9 i)).WholeWords (EltTy.packing .f32)

variable [Facts₀]

def dot_S840x576_S576x256_S840x256_1_0_0_1_n_n : DotDims S840x576 S576x256 S840x256 where
  lhsContracting := [1]
  rhsContracting := [0]
  lhsNonContracting := [0]
  rhsNonContracting := [1]
  lhsBatch := []
  rhsBatch := []
  wf := dot_S840x576_S576x256_S840x256_1_0_0_1_n_n_wf
def dot_S8x840_S840x256_S8x256_1_0_0_1_n_n : DotDims S8x840 S840x256 S8x256 where
  lhsContracting := [1]
  rhsContracting := [0]
  lhsNonContracting := [0]
  rhsNonContracting := [1]
  lhsBatch := []
  rhsBatch := []
  wf := dot_S8x840_S840x256_S8x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf

abbrev win0_0 : Pipeline.Window sig grid0 :=
  Pipeline.Window.ofSpec (Memref.whole main_call0_v3) S1x960x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S1x840.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S576x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v11_0) S1x8x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v11_1) S1x8x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.KRun.lean ====
/-
  The kernel program's run with its two results NAMED.  The program is four segments — the host operations that build the
  flattened padded images and the block-diagonal pooling mask, the convolution-and-pooling region, the head region, the
  slice of the logits — and the buffer contents at the boundaries are a fold from the launch memory: `W1` after the host
  prelude, `W2` after the first region's write-backs, `W3` after the second's, `W4` after the slice.  Every execution
  terminates with every unscoped buffer at `W4`; in particular the two results are `W4` at their buffers, and the seven
  arguments are what they were at launch.
-/
import proofs.«109567_g2000602488113785_pallaspilot1_138_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the two results at the last
    boundary's contents `W4` and the arguments as launched. -/
theorem run_named : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.KMaskDefs.lean ====
/-
  The pooling mask the kernel program builds on the host, as a function of the row of pooling weights `bs`: the 8 × 8
  identity (a comparison of the two coordinate iotas, read as 0 or 1) and `bs` as a 1 × 840 row are both spread to
  8 × 1 × 8 × 840, multiplied, and the product is re-laid as 8 × 6720.  Entry `(b, r + 840 · k)` is `δ (b, k) · bs r`.
-/
import proofs.«109567_g2000602488113785_pallaspilot1_138_2_alg».proof.Proof.Gen.KernelIdeal.Frame
import Idealize.ShloMosaic.Lib.ValueIdx

noncomputable section

namespace Cert.KernelIdeal.Mask

open Idealize.ShloMosaic Cert.KernelIdeal Cert.KernelIdeal.Gen

/-- The 8 × 8 identity: 1 where the row coordinate equals the column coordinate, 0 elsewhere. -/
def eye8 : FVec Ideal S8x8 .f32 :=
  uitofp .f32 (cmpi .eq (addi (iotaInDim S8x8 32 0) (broadcastInDim S8x8 ![] bcast_S_S8x8 (constantI S_ 32 0#32))) (iotaInDim S8x8 32 1))

/-- The block-diagonal mask from the row of pooling weights. -/
def maskOf (bs : FVec Ideal S840 .f32) : FVec Ideal S8x6720 .f32 :=
  shapeCast S8x6720
    (mulf
      (broadcastInDim S8x1x8x840 ![0, 1, 2, 3] bcast_S8x1x8x1_S8x1x8x840_0_1_2_3 (broadcastInDim S8x1x8x1 ![0, 2] bcast_S8x8_S8x1x8x1_0_2 eye8))
      (broadcastInDim S8x1x8x840 ![0, 1, 2, 3] bcast_S1x1x1x840_S8x1x8x840_0_1_2_3
        (broadcastInDim S1x1x1x840 ![1, 3] bcast_S1x840_S1x1x1x840_1_3 (shapeCast S1x840 (id bs) shapeCasts_S840_S1x840))))
    shapeCasts_S8x1x8x840_S8x6720

end Cert.KernelIdeal.Mask

end
-- ==== Proof.KHost.lean ====
/-
  The kernel program's host side, read.  Before the first region the host operations leave the arguments untouched
  (`V1_arg…`), and the mask array is the block-diagonal mask of the pooling-weight row (`pmask_eq`: both are the same
  composition of the same operations of the launch memory).  The first region writes only its own output, so the second
  region finds the arguments as launched (`V2_arg…`).  After the second region the one host operation left slices the
  first 1000 columns of the logits (`tail_logits`) and does not touch the embedding (`tail_feat`).
-/
import proofs.«109567_g2000602488113785_pallaspilot1_138_2_alg».proof.Proof.KMaskDefs
import Idealize.ShloMosaic.Lib.StableHlo.Run
import Idealize.ShloMosaic.Lib.Pipeline.Value

set_option maxRecDepth 16384

noncomputable section

namespace Cert.KernelIdeal.Host

open Idealize.ShloMosaic Idealize.ShloMosaic.TcCoe Idealize.ShloMosaic.ValueIdx Cert.KernelIdeal Cert.KernelIdeal.Gen
open Idealize.ShloMosaic.StableHlo

variable (m : (ℓ : Loc nD τ sig) → Buf (Elt Ideal) ℓ) (ρ : Dev nD → PrngReg)

set_option maxHeartbeats 4000000 in
/-- The mask array the first region finds is the block-diagonal mask of the pooling-weight row it finds. -/
theorem pmask_eq (c : Dev nD) :
    (V1 (F := Ideal) m ρ c main_call0_v17 : S8x6720.Idx → EReal) = Mask.maskOf (V1 (F := Ideal) m ρ c main_call0_v8 : S840.Idx → EReal) := by
  show StableHlo.after hostOps0 (W0 m ρ c) (Proc.devRef .tc main_call0_v17)
    = Mask.maskOf (StableHlo.after hostOps0 (W0 m ρ c) (Proc.devRef .tc main_call0_v8))
  after_results_simp
  rfl

theorem V1_arg1 (c : Dev nD) : V1 (F := Ideal) m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_arg2 (c : Dev nD) : V1 (F := Ideal) m ρ c main_arg2 = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_arg3 (c : Dev nD) : V1 (F := Ideal) m ρ c main_arg3 = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_arg4 (c : Dev nD) : V1 (F := Ideal) m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_arg5 (c : Dev nD) : V1 (F := Ideal) m ρ c main_arg5 = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_arg6 (c : Dev nD) : V1 (F := Ideal) m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem V2_arg3 (c : Dev nD) : V2 (F := Ideal) m ρ c main_arg3 = m ((c : Thread nD τ).loc main_arg3) :=
  (W2_of_ne m ρ c main_arg3 (by decide)).trans (V1_arg3 m ρ c)
theorem V2_arg4 (c : Dev nD) : V2 (F := Ideal) m ρ c main_arg4 = m ((c : Thread nD τ).loc main_arg4) :=
  (W2_of_ne m ρ c main_arg4 (by decide)).trans (V1_arg4 m ρ c)
theorem V2_arg5 (c : Dev nD) : V2 (F := Ideal) m ρ c main_arg5 = m ((c : Thread nD τ).loc main_arg5) :=
  (W2_of_ne m ρ c main_arg5 (by decide)).trans (V1_arg5 m ρ c)
theorem V2_arg6 (c : Dev nD) : V2 (F := Ideal) m ρ c main_arg6 = m ((c : Thread nD τ).loc main_arg6) :=
  (W2_of_ne m ρ c main_arg6 (by decide)).trans (V1_arg6 m ρ c)

/-- The flattened padded images as a function of the input images: channels moved last, a halo of zeros (one row above,
    three below, one column each side), the change of float format (the identity on the exact values), the 32 × 30 plane
    flattened to 960 rows. -/
def flatOf (x : FVec Ideal S256x64x28x28 .f32) : FVec Ideal S256x960x64 .bf16 :=
  shapeCast S256x960x64
    (truncf .bf16
      (pad S256x32x30x64 ![0, 1, 1, 0] ![0, 3, 1, 0] ![0, 0, 0, 0]
        (transpose S256x28x28x64 [0, 2, 3, 1] x transposes_S256x64x28x28_S256x28x28x64_0_2_3_1)
        (sitofp .f32 (constantI S_ 32 0#32)) pads_S256x28x28x64_S256x32x30x64_000_130_110_000 h_S_)
      bitsLt_bf16_f32)
    shapeCasts_S256x32x30x64_S256x960x64

/-- The first region finds the flattened padded input images. -/
theorem xflat_eq (c : Dev nD) :
    (V1 (F := Ideal) m ρ c main_call0_v3 : S256x960x64.Idx → EReal) = flatOf (m ((c : Thread nD τ).loc main_arg0)) := by
  show StableHlo.after hostOps0 (W0 m ρ c) (Proc.devRef .tc main_call0_v3) = _
  after_results
  rfl

/-- The embedding result is what the second region left in its window: the slice after it writes another buffer. -/
theorem tail_feat (c : Dev nD) : W4 (F := Ideal) m ρ c (Proc.devRef .tc main_v0_1) = W3 (F := Ideal) m ρ c (Proc.devRef .tc main_v0_1) :=
  StableHlo.after_of_forall_not_mem (b := Proc.devRef .tc main_v0_1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The logits result is the first 1000 columns of what the second region left in its logits window. -/
theorem tail_logits (c : Dev nD) (i : S256x1000.Idx) :
    (W4 (F := Ideal) m ρ c (Proc.devRef .tc main_v0_0) : S256x1000.Idx → EReal) i
      = (W3 (F := Ideal) m ρ c (Proc.devRef .tc main_call0_v19_0) : S256x1024.Idx → EReal) (ix2 (i 0) (Fin.castLE (by norm_num) (i 1))) := by
  show StableHlo.after hostOps2 (W3 m ρ c) (Proc.devRef .tc main_v0_0) i = _
  after_results
  show extractStridedSlice S256x1000 ![0, 0] (W3 (F := Ideal) m ρ c (Proc.devRef .tc main_call0_v19_0) : S256x1024.Idx → EReal)
    slices_S256x1024_S256x1000_0_0 i = _
  refine extractStridedSlice_apply ![0, 0] _ slices_S256x1024_S256x1000_0_0 i (ix2 (i 0) (Fin.castLE (by norm_num) (i 1))) fun a => ?_
  match a with
  | ⟨0, _⟩ => show (i 0).val = 0 + (i 0).val; omega
  | ⟨1, _⟩ => show (i 1).val = 0 + (i 1).val; omega

end Cert.KernelIdeal.Host

end
-- ==== Proof.Spec.lean ====
/-
  The network both programs compute, written once over the extended reals, index by index.

  For image `n` let `cv n` be the 840 × 256 array of the rectified 3 × 3 convolution outputs (one row per position of the
  padded 28 × 30 plane, one column per output feature) and `base` the row of pooling weights (1/784 on the 28 valid columns of
  every plane row, 0 on the two wrap columns).  Then

    pooled n f = ∑ r, base r · cv n (r, f)
    emb n e    = max (∑ f, pooled n f · w1 (f, e) + b1 (0, e)) 0
    logit n q  = ∑ e, emb n e · w2 (e, q) + b2 (0, q)

  and the two results are `logit` on its first 1000 columns and `emb`.  The convolution itself is kept as a parameter: both
  programs apply literally the same vector operations to an image's block, so it is never opened.

  The one law that is not a re-indexing: a sum over 8 · 840 positions weighted by a block-diagonal mask
  `δ (b, b') · base r` is the sum over the 840 positions of block `b` (`sum_blockdiag`); on the extended reals it needs only
  `0 · x = 0` and `1 · x = x`, which hold at the infinities too.
-/
import Idealize.ShloMosaic.Lib.ValueIdx
import Idealize.ShloMosaic.PureOps.Ideal.Laws

noncomputable section

open scoped BigOperators

namespace Cert.Spec

open Idealize.ShloMosaic Idealize.ShloMosaic.ValueIdx

/-- The f32 zero word at the ideal values (the rectifier's threshold); never evaluated. -/
abbrev z32 : EReal := Ideal.ofBits .f32 0x00000000#32

/-- Global average pooling of one image's rectified convolution: feature `f` is the `base`-weighted sum down column `f`. -/
def pooledOf (base : (⟨1, ![840]⟩ : Shape).Idx → EReal) (cv : (⟨2, ![840, 256]⟩ : Shape).Idx → EReal) (f : Fin 256) : EReal :=
  ∑ r : Fin 840, base (ix1 r) * cv (ix2 r f)

/-- The bottleneck layer on one pooled row: `max (p · w1 + b1) 0` at column `e`. -/
def embOf (p : Fin 256 → EReal) (w1 : (⟨2, ![256, 256]⟩ : Shape).Idx → EReal) (b1 : (⟨2, ![1, 256]⟩ : Shape).Idx → EReal)
    (e : Fin 256) : EReal :=
  max ((∑ f : Fin 256, p f * w1 (ix2 f e)) + b1 (ix2 0 e)) z32

/-- The classifier on one embedded row: `em · w2 + b2` at column `q`. -/
def logitOf (em : Fin 256 → EReal) (w2 : (⟨2, ![256, 1024]⟩ : Shape).Idx → EReal) (b2 : (⟨2, ![1, 1024]⟩ : Shape).Idx → EReal)
    (q : Fin 1024) : EReal :=
  (∑ e : Fin 256, em e * w2 (ix2 e q)) + b2 (ix2 0 q)

/-- The embedding of every image: row `n`, column `e`. -/
def featG (cv : Fin 256 → (⟨2, ![840, 256]⟩ : Shape).Idx → EReal) (base : (⟨1, ![840]⟩ : Shape).Idx → EReal)
    (w1 : (⟨2, ![256, 256]⟩ : Shape).Idx → EReal) (b1 : (⟨2, ![1, 256]⟩ : Shape).Idx → EReal) :
    (⟨2, ![256, 256]⟩ : Shape).Idx → EReal :=
  fun i => embOf (pooledOf base (cv (i 0))) w1 b1 (i 1)

/-- The first 1000 logits of every image: row `n`, column `q < 1000`. -/
def logitsG (cv : Fin 256 → (⟨2, ![840, 256]⟩ : Shape).Idx → EReal) (base : (⟨1, ![840]⟩ : Shape).Idx → EReal)
    (w1 : (⟨2, ![256, 256]⟩ : Shape).Idx → EReal) (b1 : (⟨2, ![1, 256]⟩ : Shape).Idx → EReal)
    (w2 : (⟨2, ![256, 1024]⟩ : Shape).Idx → EReal) (b2 : (⟨2, ![1, 1024]⟩ : Shape).Idx → EReal) :
    (⟨2, ![256, 1000]⟩ : Shape).Idx → EReal :=
  fun i => logitOf (embOf (pooledOf base (cv (i 0))) w1 b1) w2 b2 (Fin.castLE (by norm_num) (i 1))

/-- A sum over `B · R` positions `r + R · b'`, weighted by `δ (b, b') · base r`, is the `base`-weighted sum over block `b`. -/
theorem sum_blockdiag {B R : Nat} (b : Fin B) (d : Fin B → Fin B → EReal) (hd1 : d b b = 1) (hd0 : ∀ b', b' ≠ b → d b b' = 0)
    (base : Fin R → EReal) (x : Fin B → Fin R → EReal) :
    ∑ c : Fin (B * R), (d b (finProdFinEquiv.symm c).1 * base (finProdFinEquiv.symm c).2)
        * x (finProdFinEquiv.symm c).1 (finProdFinEquiv.symm c).2
      = ∑ r : Fin R, base r * x b r := by
  rw [← Equiv.sum_comp (finProdFinEquiv (m := B) (n := R))]
  simp only [Equiv.symm_apply_apply]
  rw [Fintype.sum_prod_type, Finset.sum_eq_single b]
  · simp only [hd1, one_mul]
  · intro b' _ hb'
    simp only [hd0 b' hb', zero_mul, Finset.sum_const_zero]
  · intro h; exact absurd (Finset.mem_univ b) h

end Cert.Spec

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.KPoolBody.lean ====
/-
  The first region's body at one grid point, as mathematics.  A point holds eight images.  For each the body forms the
  840 × 576 patch matrix (nine shifted views of the flattened padded plane side by side), multiplies by the 576 × 256 weights,
  adds the bias row and rectifies: `convRelu` — the same vector operations for every one of the eight, whatever way the
  body's text is cut into pieces.  The eight 840 × 256 results are stacked by rows and multiplied by the 8 × 6720 mask.
  Read at an entry the product is a sum over the 6720 stacked rows (`poolMM_apply`), row `r + 840 · k` being row `r` of
  image `k` (`stack8_apply`); when the mask is block diagonal, `mask (b, r + 840 · k) = δ (b, k) · base r`, only image `b`'s
  rows survive and the entry is the pooled feature of image `b` (`poolMM_blockdiag`).
-/
import proofs.«109567_g2000602488113785_pallaspilot1_138_2_alg».proof.Proof.Gen.KernelIdeal.Frame
import proofs.«109567_g2000602488113785_pallaspilot1_138_2_alg».proof.Proof.Spec
import proofs.«109567_g2000602488113785_pallaspilot1_138_2_alg».proof.Proof.LibMatmul
import Idealize.ShloMosaic.Lib.Pipeline.Value

set_option maxRecDepth 16384

noncomputable section

open scoped BigOperators

namespace Cert.KernelIdeal.Pool

open Idealize.ShloMosaic Idealize.ShloMosaic.ValueIdx Cert.KernelIdeal Cert.KernelIdeal.Gen

/-- One image's rectified convolution from its block, the weights and the bias row. -/
abbrev convRelu (v : Vec Ideal S1x960x64 .bf16) (w : Vec Ideal S576x256 .bf16) (b : Vec Ideal S1x256 .f32) : FVec Ideal S840x256 .f32 :=
  k0_pay2 (F := Ideal) v w b

theorem pay3_eq (v : Vec Ideal S1x960x64 .bf16) (w : Vec Ideal S576x256 .bf16) (b : Vec Ideal S1x256 .f32) :
    k0_pay3 (F := Ideal) v w b = convRelu v w b := rfl
theorem pay7_eq (v : Vec Ideal S1x960x64 .bf16) (w : Vec Ideal S576x256 .bf16) (b : Vec Ideal S1x256 .f32) :
    k0_pay7 (F := Ideal) (k0_pay4 v) (k0_pay5 v) (k0_pay6 v) w b = convRelu v w b := rfl
theorem pay8_eq (v : Vec Ideal S1x960x64 .bf16) (w : Vec Ideal S576x256 .bf16) (b : Vec Ideal S1x256 .f32) :
    k0_pay8 (F := Ideal) v w b = convRelu v w b := rfl
theorem pay10_eq (v : Vec Ideal S1x960x64 .bf16) (w : Vec Ideal S576x256 .bf16) (b : Vec Ideal S1x256 .f32) :
    k0_pay10 (F := Ideal) (k0_pay9 v) w b = convRelu v w b := rfl
theorem pay11_eq (v : Vec Ideal S1x960x64 .bf16) (w : Vec Ideal S576x256 .bf16) (b : Vec Ideal S1x256 .f32) :
    k0_pay11 (F := Ideal) v w b = convRelu v w b := rfl

/-- The pooling product of one grid point: the 8 × 6720 mask times the eight images' rectified convolutions stacked by rows. -/
def poolMM (pm : Vec Ideal S8x6720 .f32) (c0 c1 c2 c3 c4 c5 c6 c7 : FVec Ideal S840x256 .f32) : FVec Ideal S8x256 .f32 :=
  matmul dot_S8x6720_S6720x256_S8x256_1_0_0_1_n_n none (shapeCast S8x6720 pm shapeCasts_S8x6720_S8x6720 : FVec Ideal S8x6720 .f32)
    (concatenate S6720x256 0 [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0)
    (constant S8x256 .f32 0x00000000#32)

theorem pay1_eq (c0 c1 c2 c3 c4 c5 : FVec Ideal S840x256 .f32) (v6 v7 : Vec Ideal S1x960x64 .bf16) (w : Vec Ideal S576x256 .bf16) (b : Vec Ideal S1x256 .f32) (pm : Vec Ideal S8x6720 .f32) :
    k0_pay1 (F := Ideal) c0 c1 c2 c3 c4 c5 (k0_pay12 v6 w b) v7 w b pm = poolMM pm c0 c1 c2 c3 c4 c5 (convRelu v6 w b) (convRelu v7 w b) := rfl

/-- The eight images' rectified convolutions stacked by rows: row `r + 840 · k` is row `r` of image `k`. -/
def stack8 (c0 c1 c2 c3 c4 c5 c6 c7 : FVec Ideal S840x256 .f32) : FVec Ideal S6720x256 .f32 :=
  concatenate S6720x256 0 [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0

theorem poolMM_apply (pm : Vec Ideal S8x6720 .f32) (c0 c1 c2 c3 c4 c5 c6 c7 : FVec Ideal S840x256 .f32) (b : Fin 8) (f : Fin 256) :
    poolMM pm c0 c1 c2 c3 c4 c5 c6 c7 (ix2 b f) = ∑ j : Fin 6720, pm (ix2 b j) * stack8 c0 c1 c2 c3 c4 c5 c6 c7 (ix2 j f) := by
  unfold poolMM
  rw [shapeCast_self]
  exact Cert.LibMatmul.matmul_plain_zero_apply none pm (stack8 c0 c1 c2 c3 c4 c5 c6 c7) b f

theorem stack8_apply (c0 c1 c2 c3 c4 c5 c6 c7 : FVec Ideal S840x256 .f32) (k : Fin 8) (r : Fin 840) (f : Fin 256) :
    stack8 c0 c1 c2 c3 c4 c5 c6 c7 (ix2 (⟨r.val + 840 * k.val, by omega⟩ : Fin 6720) f) = (![c0, c1, c2, c3, c4, c5, c6, c7] k) (ix2 r f) := by
  unfold stack8
  match k with
  | ⟨0, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 0, by omega⟩ : Fin 6720) f) 0 (by simp) S840x256 c0 rfl rfl 0 (by rfl) (ix2 r f)
      (fun b hb => by match b with | ⟨0, _⟩ => exact absurd rfl hb | ⟨1, _⟩ => rfl) (by show 0 + r.val = r.val + 840 * 0; omega)
  | ⟨1, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 1, by omega⟩ : Fin 6720) f) 1 (by simp) S840x256 c1 rfl rfl 840 (by rfl) (ix2 r f)
      (fun b hb => by match b with | ⟨0, _⟩ => exact absurd rfl hb | ⟨1, _⟩ => rfl) (by show 840 + r.val = r.val + 840 * 1; omega)
  | ⟨2, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 2, by omega⟩ : Fin 6720) f) 2 (by simp) S840x256 c2 rfl rfl 1680 (by rfl) (ix2 r f)
      (fun b hb => by match b with | ⟨0, _⟩ => exact absurd rfl hb | ⟨1, _⟩ => rfl) (by show 1680 + r.val = r.val + 840 * 2; omega)
  | ⟨3, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 3, by omega⟩ : Fin 6720) f) 3 (by simp) S840x256 c3 rfl rfl 2520 (by rfl) (ix2 r f)
      (fun b hb => by match b with | ⟨0, _⟩ => exact absurd rfl hb | ⟨1, _⟩ => rfl) (by show 2520 + r.val = r.val + 840 * 3; omega)
  | ⟨4, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 4, by omega⟩ : Fin 6720) f) 4 (by simp) S840x256 c4 rfl rfl 3360 (by rfl) (ix2 r f)
      (fun b hb => by match b with | ⟨0, _⟩ => exact absurd rfl hb | ⟨1, _⟩ => rfl) (by show 3360 + r.val = r.val + 840 * 4; omega)
  | ⟨5, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 5, by omega⟩ : Fin 6720) f) 5 (by simp) S840x256 c5 rfl rfl 4200 (by rfl) (ix2 r f)
      (fun b hb => by match b with | ⟨0, _⟩ => exact absurd rfl hb | ⟨1, _⟩ => rfl) (by show 4200 + r.val = r.val + 840 * 5; omega)
  | ⟨6, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 6, by omega⟩ : Fin 6720) f) 6 (by simp) S840x256 c6 rfl rfl 5040 (by rfl) (ix2 r f)
      (fun b hb => by match b with | ⟨0, _⟩ => exact absurd rfl hb | ⟨1, _⟩ => rfl) (by show 5040 + r.val = r.val + 840 * 6; omega)
  | ⟨7, _⟩ =>
    exact concatenate_apply_piece (t := S6720x256) (0 : Fin 2) [⟨S840x256, c0⟩, ⟨S840x256, c1⟩, ⟨S840x256, c2⟩, ⟨S840x256, c3⟩, ⟨S840x256, c4⟩, ⟨S840x256, c5⟩, ⟨S840x256, c6⟩, ⟨S840x256, c7⟩] concatenates_S840x256_S840x256_S840x256_S840x256_S840x256_S840x256_S840x256_S840x256_S6720x256_d0 (ix2 (⟨r.val + 840 * 7, by omega⟩ : Fin 6720) f) 7 (by simp) S840x256 c7 rfl rfl 5880 (by rfl) (ix2 r f)
      (fun b hb => by match b with | ⟨0, _⟩ => exact absurd rfl hb | ⟨1, _⟩ => rfl) (by show 5880 + r.val = r.val + 840 * 7; omega)

/-- The 6720 stacked rows are eight blocks of 840: position `(k, r)` is row `r + 840 · k`. -/
def rows8 : Fin 8 × Fin 840 ≃ Fin 6720 where
  toFun p := ⟨p.2.val + 840 * p.1.val, by have := p.1.isLt; have := p.2.isLt; omega⟩
  invFun j := (⟨j.val / 840, by have := j.isLt; omega⟩, ⟨j.val % 840, by omega⟩)
  left_inv p := by
    obtain ⟨k, r⟩ := p
    have hk := k.isLt; have hr := r.isLt
    refine Prod.ext (Fin.ext ?_) (Fin.ext ?_)
    · show (r.val + 840 * k.val) / 840 = k.val; omega
    · show (r.val + 840 * k.val) % 840 = r.val; omega
  right_inv j := by
    apply Fin.ext
    show j.val % 840 + 840 * (j.val / 840) = j.val; omega

theorem vec8_apply {α : Type} (c : Fin 8 → α) (k : Fin 8) : (![c 0, c 1, c 2, c 3, c 4, c 5, c 6, c 7] : Fin 8 → α) k = c k := by
  fin_cases k <;> rfl

/-- Under a block-diagonal mask the pooling product's entry `(b, f)` is the pooled feature `f` of image `b`: the rows of
    the other seven images are weighted by `0 · base r = 0`, and `0 · x = 0` on the extended reals whatever `x` is. -/
theorem poolMM_blockdiag (pm : Vec Ideal S8x6720 .f32) (c : Fin 8 → FVec Ideal S840x256 .f32)
    (d : Fin 8 → Fin 8 → EReal) (base : S840.Idx → EReal)
    (hd1 : ∀ b, d b b = 1) (hd0 : ∀ b b', b' ≠ b → d b b' = 0)
    (hpm : ∀ (b k : Fin 8) (r : Fin 840), pm (ix2 b (rows8 (k, r))) = d b k * base (ix1 r)) (b : Fin 8) (f : Fin 256) :
    poolMM pm (c 0) (c 1) (c 2) (c 3) (c 4) (c 5) (c 6) (c 7) (ix2 b f) = Cert.Spec.pooledOf base (c b) f := by
  rw [poolMM_apply, ← Equiv.sum_comp rows8, Fintype.sum_prod_type]
  unfold Cert.Spec.pooledOf
  rw [Finset.sum_eq_single b]
  · refine Finset.sum_congr rfl fun r _ => ?_
    rw [hpm, hd1, one_mul]
    exact congrArg (base (ix1 r) * ·) ((stack8_apply (c 0) (c 1) (c 2) (c 3) (c 4) (c 5) (c 6) (c 7) b r f).trans (congrFun (vec8_apply c b) _))
  · intro k _ hk
    refine Finset.sum_eq_zero fun r _ => ?_
    rw [hpm, hd0 b k hk, zero_mul, zero_mul]
  · intro h; exact absurd (Finset.mem_univ b) h

end Cert.KernelIdeal.Pool

end
-- ==== Proof.KMask.lean ====
/-
  The host-built pooling mask read entry by entry.  The 8 × 8 comparison of the two coordinate iotas (after adding a zero
  word) is 1 on the diagonal and 0 off it; spread over 8 × 1 × 8 × 840 and multiplied by the row of pooling weights spread the
  same way, then re-laid as 8 × 6720, entry (b, r + 840 · k) has row-major position b · 6720 + 840 · k + r on both sides of the
  re-laying and so is δ (b, k) · bs r.
-/
import proofs.«109567_g2000602488113785_pallaspilot1_138_2_alg».proof.Proof.KMaskDefs
import proofs.«109567_g2000602488113785_pallaspilot1_138_2_alg».proof.Proof.KPoolBody
import Idealize.ShloMosaic.Lib.Pipeline.Value
import Idealize.ShloMosaic.Lib.IdealHost

noncomputable section

namespace Cert.KernelIdeal.Mask

open Idealize.ShloMosaic Idealize.ShloMosaic.ValueIdx Cert.KernelIdeal Cert.KernelIdeal.Gen

/-- On coordinates below 8 the word comparison (after adding the zero word) decides equality of the coordinates. -/
theorem cmp_words : ∀ b b' : Fin 8,
    IntOp.cmpi .eq (IntOp.addi (BitVec.ofNat 32 b.val) 0#32) (BitVec.ofNat 32 b'.val) = if b = b' then 1#1 else 0#1 := by
  decide

/-- The identity at an entry: 1 when the coordinates agree, 0 otherwise. -/
theorem eye8_apply (b b' : Fin 8) : eye8 (ix2 b b') = if b = b' then 1 else 0 := by
  have h : eye8 (ix2 b b')
      = (((IntOp.cmpi .eq (IntOp.addi (BitVec.ofNat 32 b.val) 0#32) (BitVec.ofNat 32 b'.val)).toNat : ℝ) : EReal) := by
    unfold eye8
    show (((IntOp.cmpi .eq (IntOp.addi (BitVec.ofNat 32 b.val)
      (broadcastInDim S8x8 ![] bcast_S_S8x8 (constantI S_ 32 0#32) (ix2 b b'))) (BitVec.ofNat 32 b'.val)).toNat : ℝ) : EReal) = _
    rw [broadcastInDim_scalar_apply]
    rfl
  rw [h, cmp_words b b']
  split_ifs <;> simp

theorem eye8_diag (b : Fin 8) : eye8 (ix2 b b) = 1 := by
  rw [eye8_apply, if_pos rfl]

theorem eye8_off (b b' : Fin 8) (h : b' ≠ b) : eye8 (ix2 b b') = 0 := by
  rw [eye8_apply, if_neg (fun e => h e.symm)]

/-- The mask at row b and stacked position (k, r): the identity's entry (b, k) times the pooling weight of row r. -/
theorem maskOf_apply (bs : FVec Ideal S840 .f32) (b k : Fin 8) (r : Fin 840) :
    maskOf bs (ix2 b (Cert.KernelIdeal.Pool.rows8 (k, r))) = eye8 (ix2 b k) * bs (ix1 r) := by
  unfold maskOf
  refine (shapeCast_apply _ shapeCasts_S8x1x8x840_S8x6720 (ix2 b (Cert.KernelIdeal.Pool.rows8 (k, r))) (ix4 b 0 k r) ?_).trans ?_
  · rw [Shape.rowMajor_val_four, Shape.rowMajor_val_two]
    show ((b.val * 1 + 0) * 8 + k.val) * 840 + r.val = b.val * 6720 + (r.val + 840 * k.val)
    omega
  · refine (mulf_apply _ _ _).trans ?_
    refine congrArg₂ (· * ·) ?_ ?_
    · refine (broadcastInDim_apply _ _ _ (ix4 b 0 k r) (ix4 b 0 k 0) fun a => ?_).trans ?_
      · match a with
        | ⟨0, _⟩ => rfl
        | ⟨1, _⟩ => rfl
        | ⟨2, _⟩ => rfl
        | ⟨3, _⟩ => rfl
      · refine broadcastInDim_apply _ _ _ (ix4 b 0 k 0) (ix2 b k) fun a => ?_
        match a with
        | ⟨0, _⟩ => rfl
        | ⟨1, _⟩ => rfl
    · refine (broadcastInDim_apply _ _ _ (ix4 b 0 k r) (ix4 0 0 0 r) fun a => ?_).trans ?_
      · match a with
        | ⟨0, _⟩ => rfl
        | ⟨1, _⟩ => rfl
        | ⟨2, _⟩ => rfl
        | ⟨3, _⟩ => rfl
      · refine (broadcastInDim_apply _ _ _ (ix4 0 0 0 r) (ix2 0 r) fun a => ?_).trans ?_
        · match a with
          | ⟨0, _⟩ => rfl
          | ⟨1, _⟩ => rfl
        · refine shapeCast_apply (id bs) shapeCasts_S840_S1x840 (ix2 0 r) (ix1 r) ?_
          rw [Shape.rowMajor_val_one, Shape.rowMajor_val_two]
          show r.val = 0 * 840 + r.val
          omega

end Cert.KernelIdeal.Mask

end
-- ==== Proof.KPoolBlocks.lean ====
/-
  From the first region's blocks to its whole output array.  Grid point `t` stages images `8 t … 8 t + 7` (rows of the
  flattened padded input), the whole mask, the whole weights and bias, and writes back rows `8 t … 8 t + 7` of the pooled
  array.  With the mask block diagonal, row `8 t + b` of what point `t` writes is the pooled row of image `8 t + b`; the 32
  points' blocks tile the 256 rows, so the array after the region is, row by row, the pooled features of every image.
-/
import proofs.«109567_g2000602488113785_pallaspilot1_138_2_alg».proof.Proof.KPoolBody

set_option maxRecDepth 16384

noncomputable section

open scoped BigOperators

namespace Cert.KernelIdeal.Pool

open Idealize.ShloMosaic Idealize.ShloMosaic.TcCoe Idealize.ShloMosaic.ValueIdx Cert.KernelIdeal Cert.KernelIdeal.Gen
open Idealize.ShloMosaic.Pipeline (Dat)

/-- Image `n`'s block of the flattened padded input: the 960 × 64 plane at row `n`. -/
def imgBlock (xf : Vec Ideal S256x960x64 .bf16) (n : Fin 256) : Vec Ideal S1x960x64 .bf16 := fun y => xf (ix3 n (y 1) (y 2))

/-- Image `n`'s rectified convolution, from the flattened padded input, the weights and the bias row. -/
def cvOf (xf : Vec Ideal S256x960x64 .bf16) (w : Vec Ideal S576x256 .bf16) (b : Vec Ideal S1x256 .f32) (n : Fin 256) :
    FVec Ideal S840x256 .f32 := convRelu (imgBlock xf n) w b

/-- The pooled features of every image: row `n`, feature `f`. -/
def pooledG (xf : Vec Ideal S256x960x64 .bf16) (w : Vec Ideal S576x256 .bf16) (b : Vec Ideal S1x256 .f32) (base : S840.Idx → EReal) :
    S256x256.Idx → EReal := fun i => Cert.Spec.pooledOf base (cvOf xf w b (i 0)) (i 1)

/-- The image that sits at place `k` of grid point `t`. -/
def imgOf (t : Fin cfg0.N) (k : Fin 8) : Fin 256 := ⟨8 * t.val + k.val, by have : t.val < 32 := t.isLt; have := k.isLt; omega⟩

theorem hz2 : (![0, 0] : Fin 2 → Nat) = fun _ => 0 := funext fun a => by fin_cases a <;> rfl

/-- The body's output block is the pooling product of the mask with the eight images' rectified convolutions. -/
theorem out0_4_eq (x0 : Vec Ideal S8x960x64 .bf16) (x1 : Vec Ideal S8x6720 .f32) (x2 : Vec Ideal S576x256 .bf16) (x3 : Vec Ideal S1x256 .f32) :
    out0_4 (F := Ideal) x0 x1 x2 x3 = poolMM x1 (convRelu (View.ld x0 r0_0) x2 x3) (convRelu (View.ld x0 r0_3) x2 x3) (convRelu (View.ld x0 r0_4) x2 x3)
      (convRelu (View.ld x0 r0_5) x2 x3) (convRelu (View.ld x0 r0_6) x2 x3) (convRelu (View.ld x0 r0_7) x2 x3) (convRelu (View.ld x0 r0_8) x2 x3) (convRelu (View.ld x0 r0_9) x2 x3) := by
  unfold out0_4
  rw [View.canon_unit_zero hz2]
  simp only [View.ld_unit_zero (S := S8x6720) hz2, View.ld_unit_zero (S := S576x256) hz2, View.ld_unit_zero (S := S1x256) hz2]
  rw [pay3_eq, pay7_eq, pay8_eq, pay10_eq, pay11_eq, pay1_eq]

theorem ld_img0 (x0 : Vec Ideal S8x960x64 .bf16) (y : S1x960x64.Idx) : View.ld x0 r0_0 y = x0 (ix3 (0 : Fin 8) (y 1) (y 2)) := by
  show x0 _ = x0 _
  refine congrArg x0 (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_img1 (x0 : Vec Ideal S8x960x64 .bf16) (y : S1x960x64.Idx) : View.ld x0 r0_3 y = x0 (ix3 (1 : Fin 8) (y 1) (y 2)) := by
  show x0 _ = x0 _
  refine congrArg x0 (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld_img2 (x0 : Vec Ideal S8x960x64 .bf16) (y : S1x960x64.Idx) : View.ld x0 r0_4 y = x0 (ix3 (2 : Fin 8) (y 1) (y 2)) := by
  show x0 _ = x0 _
  refine congrArg x0 (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld_img3 (x0 : Vec Ideal S8x960x64 .bf16) (y : S1x960x64.Idx) : View.ld x0 r0_5 y = x0 (ix3 (3 : Fin 8) (y 1) (y 2)) := by
  show x0 _ = x0 _
  refine congrArg x0 (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld_img4 (x0 : Vec Ideal S8x960x64 .bf16) (y : S1x960x64.Idx) : View.ld x0 r0_6 y = x0 (ix3 (4 : Fin 8) (y 1) (y 2)) := by
  show x0 _ = x0 _
  refine congrArg x0 (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld_img5 (x0 : Vec Ideal S8x960x64 .bf16) (y : S1x960x64.Idx) : View.ld x0 r0_7 y = x0 (ix3 (5 : Fin 8) (y 1) (y 2)) := by
  show x0 _ = x0 _
  refine congrArg x0 (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld_img6 (x0 : Vec Ideal S8x960x64 .bf16) (y : S1x960x64.Idx) : View.ld x0 r0_8 y = x0 (ix3 (6 : Fin 8) (y 1) (y 2)) := by
  show x0 _ = x0 _
  refine congrArg x0 (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld_img7 (x0 : Vec Ideal S8x960x64 .bf16) (y : S1x960x64.Idx) : View.ld x0 r0_9 y = x0 (ix3 (7 : Fin 8) (y 1) (y 2)) := by
  show x0 _ = x0 _
  refine congrArg x0 (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega

variable (V : (c : Dev nD) → (b : Ref sig .tc) → Buf (Elt Ideal) ((c : Thread nD τ).loc b))

/-- The printed index maps over the grid: the image window and the output window move one block per point, the mask, the
    weights and the bias stay. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point `t`'s block of the image window, read at `z`, is the flattened input at image `8 t + z₀`. -/
theorem blk0_read (c : Dev nD) (t : Fin cfg0.N) (z : S8x960x64.Idx) :
    (iblk0 (F := Ideal) V c 0 t z : EReal) = (V c main_call0_v3 : S256x960x64.Idx → EReal) (ix3 (imgOf t (z 0)) (z 1) (z 2)) := by
  show (V c main_call0_v3 : S256x960x64.Idx → EReal) _ = _
  refine congrArg (V c main_call0_v3 : S256x960x64.Idx → EReal) (funext fun a => Fin.ext ?_)
  obtain ⟨e0, e1, e2, -⟩ := idx_facts0 t
  match a with
  | ⟨0, _⟩ => show win0_0.index t (0 : Fin 3) * 8 + 1 * (z 0).val = 8 * t.val + (z 0).val; omega
  | ⟨1, _⟩ => show win0_0.index t (1 : Fin 3) * 960 + 1 * (z 1).val = (z 1).val; omega
  | ⟨2, _⟩ => show win0_0.index t (2 : Fin 3) * 64 + 1 * (z 2).val = (z 2).val; omega

theorem img0 (c : Dev nD) (t : Fin cfg0.N) : View.ld (iblk0 (F := Ideal) V c 0 t) r0_0 = imgBlock (V c main_call0_v3) (imgOf t (0 : Fin 8)) :=
  funext fun y => (ld_img0 _ y).trans (blk0_read V c t _)
theorem img1 (c : Dev nD) (t : Fin cfg0.N) : View.ld (iblk0 (F := Ideal) V c 0 t) r0_3 = imgBlock (V c main_call0_v3) (imgOf t (1 : Fin 8)) :=
  funext fun y => (ld_img1 _ y).trans (blk0_read V c t _)
theorem img2 (c : Dev nD) (t : Fin cfg0.N) : View.ld (iblk0 (F := Ideal) V c 0 t) r0_4 = imgBlock (V c main_call0_v3) (imgOf t (2 : Fin 8)) :=
  funext fun y => (ld_img2 _ y).trans (blk0_read V c t _)
theorem img3 (c : Dev nD) (t : Fin cfg0.N) : View.ld (iblk0 (F := Ideal) V c 0 t) r0_5 = imgBlock (V c main_call0_v3) (imgOf t (3 : Fin 8)) :=
  funext fun y => (ld_img3 _ y).trans (blk0_read V c t _)
theorem img4 (c : Dev nD) (t : Fin cfg0.N) : View.ld (iblk0 (F := Ideal) V c 0 t) r0_6 = imgBlock (V c main_call0_v3) (imgOf t (4 : Fin 8)) :=
  funext fun y => (ld_img4 _ y).trans (blk0_read V c t _)
theorem img5 (c : Dev nD) (t : Fin cfg0.N) : View.ld (iblk0 (F := Ideal) V c 0 t) r0_7 = imgBlock (V c main_call0_v3) (imgOf t (5 : Fin 8)) :=
  funext fun y => (ld_img5 _ y).trans (blk0_read V c t _)
theorem img6 (c : Dev nD) (t : Fin cfg0.N) : View.ld (iblk0 (F := Ideal) V c 0 t) r0_8 = imgBlock (V c main_call0_v3) (imgOf t (6 : Fin 8)) :=
  funext fun y => (ld_img6 _ y).trans (blk0_read V c t _)
theorem img7 (c : Dev nD) (t : Fin cfg0.N) : View.ld (iblk0 (F := Ideal) V c 0 t) r0_9 = imgBlock (V c main_call0_v3) (imgOf t (7 : Fin 8)) :=
  funext fun y => (ld_img7 _ y).trans (blk0_read V c t _)

/-- The mask, the weights and the bias are staged whole at every point. -/
theorem blk1_whole (c : Dev nD) (t : Fin cfg0.N) : iblk0 (F := Ideal) V c 1 t = (V c main_call0_v17 : S8x6720.Idx → EReal) := by
  funext z
  show (V c main_call0_v17 : S8x6720.Idx → EReal) _ = _
  refine congrArg (V c main_call0_v17 : S8x6720.Idx → EReal) (funext fun a => Fin.ext ?_)
  obtain ⟨-, -, -, e0, e1, -⟩ := idx_facts0 t
  match a with
  | ⟨0, _⟩ => show win0_1.index t (0 : Fin 2) * 8 + 1 * (z 0).val = (z 0).val; omega
  | ⟨1, _⟩ => show win0_1.index t (1 : Fin 2) * 6720 + 1 * (z 1).val = (z 1).val; omega
theorem blk2_whole (c : Dev nD) (t : Fin cfg0.N) : iblk0 (F := Ideal) V c 2 t = (V c main_arg1 : S576x256.Idx → EReal) := by
  funext z
  show (V c main_arg1 : S576x256.Idx → EReal) _ = _
  refine congrArg (V c main_arg1 : S576x256.Idx → EReal) (funext fun a => Fin.ext ?_)
  obtain ⟨-, -, -, -, -, e0, e1, -⟩ := idx_facts0 t
  match a with
  | ⟨0, _⟩ => show win0_2.index t (0 : Fin 2) * 576 + 1 * (z 0).val = (z 0).val; omega
  | ⟨1, _⟩ => show win0_2.index t (1 : Fin 2) * 256 + 1 * (z 1).val = (z 1).val; omega
theorem blk3_whole (c : Dev nD) (t : Fin cfg0.N) : iblk0 (F := Ideal) V c 3 t = (V c main_arg2 : S1x256.Idx → EReal) := by
  funext z
  show (V c main_arg2 : S1x256.Idx → EReal) _ = _
  refine congrArg (V c main_arg2 : S1x256.Idx → EReal) (funext fun a => Fin.ext ?_)
  obtain ⟨-, -, -, -, -, -, -, e0, e1, -⟩ := idx_facts0 t
  match a with
  | ⟨0, _⟩ => show win0_3.index t (0 : Fin 2) * 1 + 1 * (z 0).val = (z 0).val; omega
  | ⟨1, _⟩ => show win0_3.index t (1 : Fin 2) * 256 + 1 * (z 1).val = (z 1).val; omega

/-- Where entry `(p, q)` of point `t`'s output block sits in the pooled array: row `8 t + p`, column `q`. -/
theorem emb4 (t : Fin cfg0.N) (p : Fin 8) (q : Fin 256) :
    ((cfg0.win 4).blk t).view.emb (ix2 p q) = (ix2 (imgOf t p) q : S256x256.Idx) := by
  funext a; apply Fin.ext
  obtain ⟨-, -, -, -, -, -, -, -, -, e0, e1⟩ := idx_facts0 t
  match a with
  | ⟨0, _⟩ => show win0_4.index t (0 : Fin 2) * 8 + 1 * p.val = 8 * t.val + p.val; omega
  | ⟨1, _⟩ => show win0_4.index t (1 : Fin 2) * 256 + 1 * q.val = q.val; omega

/-- Under a block-diagonal mask, rows `8 t … 8 t + 7` that grid point `t` writes are those rows of the pooled features. -/
theorem flushed4_eq (c : Dev nD) (d : Fin 8 → Fin 8 → EReal) (base : S840.Idx → EReal)
    (hd1 : ∀ b, d b b = 1) (hd0 : ∀ b b', b' ≠ b → d b b' = 0)
    (hpm : ∀ (b k : Fin 8) (r : Fin 840), (V c main_call0_v17 : S8x6720.Idx → EReal) (ix2 b (rows8 (k, r))) = d b k * base (ix1 r))
    (t : Fin cfg0.N) :
    (dat0 (F := Ideal) V c).flushed 4 t
      = ((cfg0.win 4).blk t).view.read (Elt Ideal) (pooledG (V c main_call0_v3) (V c main_arg1) (V c main_arg2) base) := by
  show (cfg0.win 4).cut (grid0.coords t) ((dat0 (F := Ideal) V c).after 4 t) = _
  rw [after0_4, out0_4_eq, img0, img1, img2, img3, img4, img5, img6, img7, blk1_whole, blk2_whole, blk3_whole]
  funext j
  obtain ⟨p, q, rfl⟩ : ∃ (p : Fin 8) (q : Fin 256), j = ix2 p q := ⟨j 0, j 1, eq_ix2 j⟩
  show _ = pooledG (V c main_call0_v3) (V c main_arg1) (V c main_arg2) base (((cfg0.win 4).blk t).view.emb (ix2 p q))
  rw [emb4]
  exact poolMM_blockdiag (V c main_call0_v17) (fun k => cvOf (V c main_call0_v3) (V c main_arg1) (V c main_arg2) (imgOf t k)) d base hd1 hd0 hpm p q

/-- An index of the pooled array is in point `t`'s block iff each coordinate is in the block's range on its axis. -/
theorem mem_blk4 (t : Fin cfg0.N) (i : S256x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_call0_v18).slice (win0_4.rect t)).set ↔ _
  rw [View.set_slice_whole, Rect.mem_set_unit]
  exact Iff.rfl

/-- Row `r` of the pooled array is in the block of point `r / 8`. -/
theorem cover4 (i : S256x256.Idx) : ∃ t : Fin cfg0.N, (cfg0.win 4).flush t = true ∧ i ∈ ((cfg0.win 4).blk t).view.set := by
  have h0 : (i 0).val < 256 := (i 0).isLt
  have h1 : (i 1).val < 256 := (i 1).isLt
  refine ⟨⟨(i 0).val / 8, by show (i 0).val / 8 < 32; omega⟩, flush0_4 _, ?_⟩
  rw [mem_blk4]
  obtain ⟨-, -, -, -, -, -, -, -, -, e0, e1⟩ := idx_facts0 ⟨(i 0).val / 8, by show (i 0).val / 8 < 32; omega⟩
  intro a
  match a with
  | ⟨0, _⟩ =>
    show win0_4.index _ (0 : Fin 2) * 8 ≤ (i 0).val ∧ (i 0).val < win0_4.index _ (0 : Fin 2) * 8 + 8
    rw [e0]; show (i 0).val / 8 * 8 ≤ (i 0).val ∧ (i 0).val < (i 0).val / 8 * 8 + 8; omega
  | ⟨1, _⟩ =>
    show win0_4.index _ (1 : Fin 2) * 256 ≤ (i 1).val ∧ (i 1).val < win0_4.index _ (1 : Fin 2) * 256 + 256
    rw [e1]; omega

/-- The 32 points' blocks tile the 256 rows, so the region leaves the pooled features of every image. -/
theorem pooled_final (c : Dev nD) (d : Fin 8 → Fin 8 → EReal) (base : S840.Idx → EReal)
    (hd1 : ∀ b, d b b = 1) (hd0 : ∀ b b', b' ≠ b → d b b' = 0)
    (hpm : ∀ (b k : Fin 8) (r : Fin 840), (V c main_call0_v17 : S8x6720.Idx → EReal) (ix2 b (rows8 (k, r))) = d b k * base (ix1 r)) :
    (dat0 (F := Ideal) V c).arrAt 4 cfg0.N = pooledG (V c main_call0_v3) (V c main_arg1) (V c main_arg2) base :=
  (dat0 (F := Ideal) V c).arrAt_eq_of_cover 4 _ (fun t _ => flushed4_eq V c d base hd1 hd0 hpm t) cover4

end Cert.KernelIdeal.Pool

end
-- ==== Proof.KHeadBody.lean ====
/-
  The second region's body on one block of 128 pooled rows, read entry by entry: the bottleneck layer
  emb (p, e) = max (∑ f, x (p, f) · w1 (f, e) + b1 (0, e)) 0 and the classifier
  logit (p, q) = ∑ e, emb (p, e) · w2 (e, q) + b2 (0, q).  At the exact values the two roundings to bf16 are the identity,
  the matrix products into a zero accumulator are plain sums over the contracted coordinate, and the bias rows are
  broadcast down the rows; so each entry is the specification's function of row p of the block.
-/
import proofs.«109567_g2000602488113785_pallaspilot1_138_2_alg».proof.Proof.Spec
import proofs.«109567_g2000602488113785_pallaspilot1_138_2_alg».proof.Proof.LibMatmul
import proofs.«109567_g2000602488113785_pallaspilot1_138_2_alg».proof.Proof.Gen.KernelIdeal.Skeleton
import Idealize.ShloMosaic.Lib.Pipeline.Value

noncomputable section

open scoped BigOperators

namespace Cert.KernelIdeal.Head

open Idealize.ShloMosaic Idealize.ShloMosaic.ValueIdx Cert.KernelIdeal.Gen

/-- The printed contraction of a 128 × 256 by a 256 × 256 matrix is the plain one. -/
theorem dims1_eq : dot_S128x256_S256x256_S128x256_1_0_0_1_n_n = DotDims.plain 128 256 256 := rfl

/-- The printed contraction of a 128 × 256 by a 256 × 1024 matrix is the plain one. -/
theorem dims2_eq : dot_S128x256_S256x1024_S128x1024_1_0_0_1_n_n = DotDims.plain 128 256 1024 := rfl

/-- The first bias row broadcast down 128 rows, at (p, e), is its entry (0, e). -/
theorem bias1_apply (v5 : FVec Ideal S1x256 .f32) (p : Fin 128) (e : Fin 256) :
    broadcastTo S128x256 v5 broadcasts_S1x256_S128x256 (ix2 p e) = v5 (ix2 0 e) := by
  refine broadcastTo_apply v5 _ (ix2 p e) (ix2 0 e) fun a => ?_
  match a with
  | ⟨0, _⟩ => rfl
  | ⟨1, _⟩ => rfl

/-- The second bias row broadcast down 128 rows, at (p, q), is its entry (0, q). -/
theorem bias2_apply (v14 : FVec Ideal S1x1024 .f32) (p : Fin 128) (q : Fin 1024) :
    broadcastTo S128x1024 v14 broadcasts_S1x1024_S128x1024 (ix2 p q) = v14 (ix2 0 q) := by
  refine broadcastTo_apply v14 _ (ix2 p q) (ix2 0 q) fun a => ?_
  match a with
  | ⟨0, _⟩ => rfl
  | ⟨1, _⟩ => rfl

/-- The rectified bottleneck on a block, at row p and column e. -/
theorem emb_apply (v0 : Vec Ideal S128x256 .f32) (v3 : Vec Ideal S256x256 .bf16) (v5 : Vec Ideal S1x256 .f32)
    (p : Fin 128) (e : Fin 256) :
    k1_pay1 (F := Ideal) v0 v3 v5 (ix2 p e) = Cert.Spec.embOf (fun f => v0 (ix2 p f)) v3 v5 e := by
  unfold k1_pay1 Cert.Spec.embOf
  dsimp only
  refine (maximumf_apply _ _ _).trans ?_
  refine congrArg₂ max ?_ rfl
  refine (addf_apply _ _ _).trans ?_
  refine congrArg₂ (· + ·) ?_ (bias1_apply v5 p e)
  have hm := Cert.LibMatmul.matmul_plain_zero_apply (M := 128) (K := 256) (N := 256) (φ₁ := .bf16) (φ₂ := .bf16) none
    (truncf .bf16 (shapeCast S128x256 v0 shapeCasts_S128x256_S128x256) bitsLt_bf16_f32 : FVec Ideal ⟨2, ![128, 256]⟩ .bf16)
    (v3 : FVec Ideal ⟨2, ![256, 256]⟩ .bf16) p e
  refine Eq.trans ?_ (hm.trans ?_)
  · rfl
  · refine Finset.sum_congr rfl fun f _ => ?_
    rw [truncf_apply, shapeCast_self]

/-- The classifier on a block, at row p and column q. -/
theorem logit_apply (v0 : Vec Ideal S128x256 .f32) (v3 : Vec Ideal S256x256 .bf16) (v5 : Vec Ideal S1x256 .f32)
    (v12 : Vec Ideal S256x1024 .bf16) (v14 : Vec Ideal S1x1024 .f32) (p : Fin 128) (q : Fin 1024) :
    k1_pay2 (F := Ideal) v0 v3 v5 v12 v14 (ix2 p q)
      = Cert.Spec.logitOf (Cert.Spec.embOf (fun f => v0 (ix2 p f)) v3 v5) v12 v14 q := by
  unfold k1_pay2 Cert.Spec.logitOf
  refine (addf_apply _ _ _).trans ?_
  refine congrArg₂ (· + ·) ?_ (bias2_apply v14 p q)
  have hm := Cert.LibMatmul.matmul_plain_zero_apply (M := 128) (K := 256) (N := 1024) (φ₁ := .bf16) (φ₂ := .bf16) none
    (truncf .bf16 (k1_pay1 v0 v3 v5) bitsLt_bf16_f32 : FVec Ideal ⟨2, ![128, 256]⟩ .bf16)
    (v12 : FVec Ideal ⟨2, ![256, 1024]⟩ .bf16) p q
  refine Eq.trans ?_ (hm.trans ?_)
  · rfl
  · refine Finset.sum_congr rfl fun e _ => ?_
    rw [truncf_apply, emb_apply]

end Cert.KernelIdeal.Head

end
-- ==== Proof.KHeadBlocks.lean ====
/-
  From the blocks of the second region to its two result arrays.  The grid has two points; point t takes rows
  128·t … 128·t + 127 of the pooled array (the weights and the bias rows whole), and writes back rows 128·t … 128·t + 127 of the
  embedding and of the logits.  Row r of either result therefore depends on row r of the pooled array alone, point r / 128 is the
  one that covers it, and the two arrays end as the specification's functions of the pooled array, row by row.
-/
import proofs.«109567_g2000602488113785_pallaspilot1_138_2_alg».proof.Proof.KHeadBody
import proofs.«109567_g2000602488113785_pallaspilot1_138_2_alg».proof.Proof.Gen.KernelIdeal.Frame
import Idealize.ShloMosaic.Lib.Pipeline.Value

noncomputable section

open scoped BigOperators

namespace Cert.KernelIdeal.Head

open Idealize.ShloMosaic Idealize.ShloMosaic.TcCoe Idealize.ShloMosaic.ValueIdx Idealize.SL.Sem Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the seven windows at point t: the row-blocked ones (the pooled rows, the logits, the embedding) sit at
    block t of the rows, and every other index is 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Point t's block of the pooled array is its rows 128·t …: entry (p, f) of the block is entry (r, f) of the array for
    r = 128·t + p. -/
theorem blk0_apply (c : Dev nD) (t : Fin cfg1.N) (p : Fin 128) (f : Fin 256) (r : Fin 256) (hr : r.val = 128 * t.val + p.val) :
    (iblk1 V c 0 t : Vec Ideal S128x256 .f32) (ix2 p f) = (V c main_call0_v18 : S256x256.Idx → EReal) (ix2 r f) := by
  obtain ⟨e0, e1, -⟩ := idx_facts t
  unfold iblk1
  rw [View.read_apply]
  show V c main_call0_v18 _ = V c main_call0_v18 _
  congr 1
  funext a
  apply Fin.ext
  match a with
  | ⟨0, _⟩ => show win1_0.index t (0 : Fin 2) * 128 + 1 * p.val = r.val; rw [e0, hr]; omega
  | ⟨1, _⟩ => show win1_0.index t (1 : Fin 2) * 256 + 1 * f.val = f.val; rw [e1]; omega

/-- The first weight matrix is staged whole at every point. -/
theorem blk1_eq (c : Dev nD) (t : Fin cfg1.N) : (iblk1 V c 1 t : Vec Ideal S256x256 .bf16) = V c main_arg3 := by
  obtain ⟨-, -, e0, e1, -⟩ := idx_facts t
  funext y
  unfold iblk1
  rw [View.read_apply]
  show V c main_arg3 _ = V c main_arg3 y
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- The first bias row is staged whole at every point. -/
theorem blk2_eq (c : Dev nD) (t : Fin cfg1.N) : (iblk1 V c 2 t : Vec Ideal S1x256 .f32) = V c main_arg4 := by
  obtain ⟨-, -, -, -, e0, e1, -⟩ := idx_facts t
  funext y
  unfold iblk1
  rw [View.read_apply]
  show V c main_arg4 _ = V c main_arg4 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The second weight matrix is staged whole at every point. -/
theorem blk3_eq (c : Dev nD) (t : Fin cfg1.N) : (iblk1 V c 3 t : Vec Ideal S256x1024 .bf16) = V c main_arg5 := by
  obtain ⟨-, -, -, -, -, -, e0, e1, -⟩ := idx_facts t
  funext y
  unfold iblk1
  rw [View.read_apply]
  show V c main_arg5 _ = V c main_arg5 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 1024 + 1 * (y 1).val = (y 1).val; rw [e1]; omega

/-- The second bias row is staged whole at every point. -/
theorem blk4_eq (c : Dev nD) (t : Fin cfg1.N) : (iblk1 V c 4 t : Vec Ideal S1x1024 .f32) = V c main_arg6 := by
  obtain ⟨-, -, -, -, -, -, -, -, e0, e1, -⟩ := idx_facts t
  funext y
  unfold iblk1
  rw [View.read_apply]
  show V c main_arg6 _ = V c main_arg6 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 1024 + 1 * (y 1).val = (y 1).val; rw [e1]; omega

/-- The bottleneck payload at an entry j of a block whose row j 0 is row i 0 of an array A0: the specification's embedding
    of that row of A0, at column i 1 = j 1. -/
theorem emb_point (A0 : S256x256.Idx → EReal) (x0 : Vec Ideal S128x256 .f32) (x1 : Vec Ideal S256x256 .bf16)
    (x2 : Vec Ideal S1x256 .f32) (j : S128x256.Idx) (i : S256x256.Idx)
    (h0 : ∀ f : Fin 256, x0 (ix2 (j 0) f) = A0 (ix2 (i 0) f)) (h1 : (i 1).val = (j 1).val) :
    k1_pay1 (F := Ideal) x0 x1 x2 j = Cert.Spec.embOf (fun f => A0 (ix2 (i 0) f)) x1 x2 (i 1) := by
  have e1 : (j 1 : Fin 256) = i 1 := Fin.ext h1.symm
  have ef : (fun f : Fin 256 => x0 (ix2 (j 0) f)) = fun f => A0 (ix2 (i 0) f) := funext h0
  calc k1_pay1 (F := Ideal) x0 x1 x2 j = k1_pay1 (F := Ideal) x0 x1 x2 (ix2 (j 0) (j 1)) := congrArg _ (eq_ix2 j)
    _ = Cert.Spec.embOf (fun f => x0 (ix2 (j 0) f)) x1 x2 (j 1) := emb_apply x0 x1 x2 (j 0) (j 1)
    _ = Cert.Spec.embOf (fun f => A0 (ix2 (i 0) f)) x1 x2 (i 1) := by rw [ef, e1]

/-- The classifier payload at an entry j of a block whose row j 0 is row i 0 of an array A0. -/
theorem logit_point (A0 : S256x256.Idx → EReal) (x0 : Vec Ideal S128x256 .f32) (x1 : Vec Ideal S256x256 .bf16)
    (x2 : Vec Ideal S1x256 .f32) (x3 : Vec Ideal S256x1024 .bf16) (x4 : Vec Ideal S1x1024 .f32)
    (j : S128x1024.Idx) (i : S256x1024.Idx)
    (h0 : ∀ f : Fin 256, x0 (ix2 (j 0) f) = A0 (ix2 (i 0) f)) (h1 : (i 1).val = (j 1).val) :
    k1_pay2 (F := Ideal) x0 x1 x2 x3 x4 j
      = Cert.Spec.logitOf (Cert.Spec.embOf (fun f => A0 (ix2 (i 0) f)) x1 x2) x3 x4 (i 1) := by
  have e1 : (j 1 : Fin 1024) = i 1 := Fin.ext h1.symm
  have ef : (fun f : Fin 256 => x0 (ix2 (j 0) f)) = fun f => A0 (ix2 (i 0) f) := funext h0
  calc k1_pay2 (F := Ideal) x0 x1 x2 x3 x4 j = k1_pay2 (F := Ideal) x0 x1 x2 x3 x4 (ix2 (j 0) (j 1)) := congrArg _ (eq_ix2 j)
    _ = Cert.Spec.logitOf (Cert.Spec.embOf (fun f => x0 (ix2 (j 0) f)) x1 x2) x3 x4 (j 1) := logit_apply x0 x1 x2 x3 x4 (j 0) (j 1)
    _ = Cert.Spec.logitOf (Cert.Spec.embOf (fun f => A0 (ix2 (i 0) f)) x1 x2) x3 x4 (i 1) := by rw [ef, e1]

/-- The embedding of every pooled row, as one array over the region's entry contents. -/
abbrev featArr (c : Dev nD) : S256x256.Idx → EReal :=
  fun i => Cert.Spec.embOf (fun f => V c main_call0_v18 (ix2 (i 0) f)) (V c main_arg3) (V c main_arg4) (i 1)

/-- The logits of every pooled row, as one array over the region's entry contents. -/
abbrev logitArr (c : Dev nD) : S256x1024.Idx → EReal :=
  fun i => Cert.Spec.logitOf (Cert.Spec.embOf (fun f => V c main_call0_v18 (ix2 (i 0) f)) (V c main_arg3) (V c main_arg4))
    (V c main_arg5) (V c main_arg6) (i 1)

/-- What point t writes back to the embedding is rows 128·t … of featArr. -/
theorem feat_flushed (c : Dev nD) (t : Fin cfg1.N) :
    (dat1 (F := Ideal) V c).flushed 6 t = ((cfg1.win 6).blk t).view.read (Elt Ideal) (featArr V c) := by
  obtain ⟨-, -, -, -, -, -, -, -, -, -, -, -, e0, e1⟩ := idx_facts t
  show (cfg1.win 6).cut (grid1.coords t) ((dat1 V c).after 6 t) = _
  rw [after1_6]
  unfold out1_6
  rw [View.canon_unit_zero hz]
  simp only [View.ld_unit_zero (S := S128x256) hz, View.ld_unit_zero (S := S256x256) hz, View.ld_unit_zero (S := S1x256) hz]
  funext j
  show k1_pay1 (iblk1 V c 0 t) (iblk1 V c 1 t) (iblk1 V c 2 t) j = featArr V c (((cfg1.win 6).blk t).view.emb j)
  refine (emb_point (V c main_call0_v18) (iblk1 V c 0 t) (iblk1 V c 1 t) (iblk1 V c 2 t) j (((cfg1.win 6).blk t).view.emb j)
    (fun f => blk0_apply V c t (j 0) f _ ?_) ?_).trans ?_
  · show win1_6.index t (0 : Fin 2) * 128 + 1 * (j 0).val = 128 * t.val + (j 0).val; rw [e0]; omega
  · show win1_6.index t (1 : Fin 2) * 256 + 1 * (j 1).val = (j 1).val; rw [e1]; omega
  · rw [blk1_eq V c t, blk2_eq V c t]

/-- What point t writes back to the logits is rows 128·t … of logitArr. -/
theorem logit_flushed (c : Dev nD) (t : Fin cfg1.N) :
    (dat1 (F := Ideal) V c).flushed 5 t = ((cfg1.win 5).blk t).view.read (Elt Ideal) (logitArr V c) := by
  obtain ⟨-, -, -, -, -, -, -, -, -, -, e0, e1, -⟩ := idx_facts t
  show (cfg1.win 5).cut (grid1.coords t) ((dat1 V c).after 5 t) = _
  rw [after1_5]
  unfold out1_5
  rw [View.canon_unit_zero hz]
  simp only [View.ld_unit_zero (S := S128x256) hz, View.ld_unit_zero (S := S256x256) hz, View.ld_unit_zero (S := S1x256) hz,
    View.ld_unit_zero (S := S256x1024) hz, View.ld_unit_zero (S := S1x1024) hz]
  funext j
  show k1_pay2 (iblk1 V c 0 t) (iblk1 V c 1 t) (iblk1 V c 2 t) (iblk1 V c 3 t) (iblk1 V c 4 t) j
    = logitArr V c (((cfg1.win 5).blk t).view.emb j)
  refine (logit_point (V c main_call0_v18) (iblk1 V c 0 t) (iblk1 V c 1 t) (iblk1 V c 2 t) (iblk1 V c 3 t) (iblk1 V c 4 t) j
    (((cfg1.win 5).blk t).view.emb j) (fun f => blk0_apply V c t (j 0) f _ ?_) ?_).trans ?_
  · show win1_5.index t (0 : Fin 2) * 128 + 1 * (j 0).val = 128 * t.val + (j 0).val; rw [e0]; omega
  · show win1_5.index t (1 : Fin 2) * 1024 + 1 * (j 1).val = (j 1).val; rw [e1]; omega
  · rw [blk1_eq V c t, blk2_eq V c t, blk3_eq V c t, blk4_eq V c t]

/-- An entry of the embedding array is in point t's block iff each coordinate is in the block's range on its axis. -/
theorem mem_blk6 (t : Fin cfg1.N) (i : S256x256.Idx) :
    i ∈ ((cfg1.win 6).blk t).view.set ↔ ∀ a : Fin 2, win1_6.index t a * S128x256.size a ≤ (i a).val
      ∧ (i a).val < win1_6.index t a * S128x256.size a + S128x256.size a := by
  show i ∈ ((View.whole main_v0_1).slice (win1_6.rect t)).set ↔ _
  rw [View.set_slice_whole, Rect.mem_set_unit]
  exact Iff.rfl

/-- An entry of the logits array is in point t's block iff each coordinate is in the block's range on its axis. -/
theorem mem_blk5 (t : Fin cfg1.N) (i : S256x1024.Idx) :
    i ∈ ((cfg1.win 5).blk t).view.set ↔ ∀ a : Fin 2, win1_5.index t a * S128x1024.size a ≤ (i a).val
      ∧ (i a).val < win1_5.index t a * S128x1024.size a + S128x1024.size a := by
  show i ∈ ((View.whole main_call0_v19_0).slice (win1_5.rect t)).set ↔ _
  rw [View.set_slice_whole, Rect.mem_set_unit]
  exact Iff.rfl

/-- Row r of the embedding is written back by point r / 128. -/
theorem cover6 (i : S256x256.Idx) :
    ∃ t : Fin cfg1.N, (cfg1.win 6).flush t = true ∧ i ∈ ((cfg1.win 6).blk t).view.set := by
  have hN : cfg1.N = 2 := N_1
  have hi0 : (i 0).val < 256 := (i 0).isLt
  have hi1 : (i 1).val < 256 := (i 1).isLt
  obtain ⟨t, ht⟩ : ∃ t : Fin cfg1.N, t.val = (i 0).val / 128 := ⟨⟨(i 0).val / 128, by rw [hN]; omega⟩, rfl⟩
  obtain ⟨-, -, -, -, -, -, -, -, -, -, -, -, e0, e1⟩ := idx_facts t
  refine ⟨t, flush1_6 t, ?_⟩
  rw [mem_blk6]
  intro a
  match a with
  | ⟨0, _⟩ =>
    show win1_6.index t (0 : Fin 2) * 128 ≤ (i 0).val ∧ (i 0).val < win1_6.index t (0 : Fin 2) * 128 + 128
    rw [e0, ht]; omega
  | ⟨1, _⟩ =>
    show win1_6.index t (1 : Fin 2) * 256 ≤ (i 1).val ∧ (i 1).val < win1_6.index t (1 : Fin 2) * 256 + 256
    rw [e1]; omega

/-- Row r of the logits is written back by point r / 128. -/
theorem cover5 (i : S256x1024.Idx) :
    ∃ t : Fin cfg1.N, (cfg1.win 5).flush t = true ∧ i ∈ ((cfg1.win 5).blk t).view.set := by
  have hN : cfg1.N = 2 := N_1
  have hi0 : (i 0).val < 256 := (i 0).isLt
  have hi1 : (i 1).val < 1024 := (i 1).isLt
  obtain ⟨t, ht⟩ : ∃ t : Fin cfg1.N, t.val = (i 0).val / 128 := ⟨⟨(i 0).val / 128, by rw [hN]; omega⟩, rfl⟩
  obtain ⟨-, -, -, -, -, -, -, -, -, -, e0, e1, -⟩ := idx_facts t
  refine ⟨t, flush1_5 t, ?_⟩
  rw [mem_blk5]
  intro a
  match a with
  | ⟨0, _⟩ =>
    show win1_5.index t (0 : Fin 2) * 128 ≤ (i 0).val ∧ (i 0).val < win1_5.index t (0 : Fin 2) * 128 + 128
    rw [e0, ht]; omega
  | ⟨1, _⟩ =>
    show win1_5.index t (1 : Fin 2) * 1024 ≤ (i 1).val ∧ (i 1).val < win1_5.index t (1 : Fin 2) * 1024 + 1024
    rw [e1]; omega

/-- THE EMBEDDING after the region: row n is the specification's bottleneck layer of row n of the pooled array. -/
theorem feat_final (c : Dev nD) : (Gen.dat1 (F := Ideal) V c).arrAt 6 cfg1.N
      = fun i => Cert.Spec.embOf (fun f => V c main_call0_v18 (ix2 (i 0) f)) (V c main_arg3) (V c main_arg4) (i 1) :=
  (dat1 (F := Ideal) V c).arrAt_eq_of_cover 6 (featArr V c) (fun t _ => feat_flushed V c t) cover6

/-- THE LOGITS after the region: row n is the specification's classifier of the embedding of row n of the pooled array. -/
theorem logits_final (c : Dev nD) : (Gen.dat1 (F := Ideal) V c).arrAt 5 cfg1.N
      = fun i => Cert.Spec.logitOf (Cert.Spec.embOf (fun f => V c main_call0_v18 (ix2 (i 0) f)) (V c main_arg3) (V c main_arg4))
          (V c main_arg5) (V c main_arg6) (i 1) :=
  (dat1 (F := Ideal) V c).arrAt_eq_of_cover 5 (logitArr V c) (fun t _ => logit_flushed V c t) cover5

end Cert.KernelIdeal.Head

end
-- ==== Proof.KValue.lean ====
/-
  The kernel program's two results as functions of its arguments.  The first region leaves the pooled features of every
  image (its mask is block diagonal); the second region's embedding and logits of row `n` depend on pooled row `n` only;
  the host slice keeps the first 1000 logits.  So the results are `Spec.logitsG` and `Spec.featG` of the images'
  rectified convolutions `cv`, the pooling-weight row `base` and the head's weights and biases.
-/
import proofs.«109567_g2000602488113785_pallaspilot1_138_2_alg».proof.Proof.KRun
import proofs.«109567_g2000602488113785_pallaspilot1_138_2_alg».proof.Proof.KHost
import proofs.«109567_g2000602488113785_pallaspilot1_138_2_alg».proof.Proof.KMask
import proofs.«109567_g2000602488113785_pallaspilot1_138_2_alg».proof.Proof.KPoolBlocks
import proofs.«109567_g2000602488113785_pallaspilot1_138_2_alg».proof.Proof.KHeadBlocks

set_option maxRecDepth 16384

noncomputable section

namespace Cert.KernelIdeal.Value

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The flattened padded images, as the host operations before the first region leave them. -/
def xflat (c : Dev nD) : Vec Ideal S256x960x64 .bf16 := V1 (F := Ideal) m ρ c main_call0_v3
/-- The row of pooling weights, as the host operations leave it. -/
def base (c : Dev nD) : S840.Idx → EReal := V1 (F := Ideal) m ρ c main_call0_v8
/-- Image `n`'s rectified convolution. -/
def cv (c : Dev nD) (n : Fin 256) : FVec Ideal S840x256 .f32 :=
  Pool.cvOf (xflat m ρ c) (m ((c : Thread nD τ).loc main_arg1)) (m ((c : Thread nD τ).loc main_arg2)) n

/-- The second region finds the pooled features of every image in its first window's array. -/
theorem pooled_arr (c : Dev nD) :
    (V2 (F := Ideal) m ρ c main_call0_v18 : S256x256.Idx → EReal)
      = Pool.pooledG (xflat m ρ c) (m ((c : Thread nD τ).loc main_arg1)) (m ((c : Thread nD τ).loc main_arg2)) (base m ρ c) := by
  have h := Pool.pooled_final (V1 (F := Ideal) m ρ) c (fun b k => Mask.eye8 (ix2 b k)) (base m ρ c) Mask.eye8_diag
    (fun b b' hb => Mask.eye8_off b b' hb) (fun b k r => by rw [Host.pmask_eq]; exact Mask.maskOf_apply _ b k r)
  rw [Host.V1_arg1, Host.V1_arg2] at h
  exact (W2_arr m ρ c 4).trans h

/-- The embedding result. -/
theorem feat_value (c : Dev nD) :
    W4 (F := Ideal) m ρ c (Proc.devRef .tc main_v0_1)
      = Cert.Spec.featG (cv m ρ c) (base m ρ c) (m ((c : Thread nD τ).loc main_arg3)) (m ((c : Thread nD τ).loc main_arg4)) := by
  rw [Host.tail_feat]
  refine (W3_arr m ρ c 6).trans ?_
  rw [Head.feat_final (V2 (F := Ideal) m ρ) c, pooled_arr, Host.V2_arg3, Host.V2_arg4]
  rfl

/-- The logits result. -/
theorem logits_value (c : Dev nD) :
    W4 (F := Ideal) m ρ c (Proc.devRef .tc main_v0_0)
      = Cert.Spec.logitsG (cv m ρ c) (base m ρ c) (m ((c : Thread nD τ).loc main_arg3)) (m ((c : Thread nD τ).loc main_arg4))
          (m ((c : Thread nD τ).loc main_arg5)) (m ((c : Thread nD τ).loc main_arg6)) := by
  funext i
  refine (Host.tail_logits m ρ c i).trans ?_
  rw [show W3 (F := Ideal) m ρ c (Proc.devRef .tc main_call0_v19_0) = (dat1 (F := Ideal) (V2 m ρ) c).arrAt 5 cfg1.N from W3_arr m ρ c 5,
    Head.logits_final (V2 (F := Ideal) m ρ) c, pooled_arr, Host.V2_arg3, Host.V2_arg4, Host.V2_arg5, Host.V2_arg6]
  rfl

/-- Every execution of the kernel program ends with its two results at the network's values, the arguments unchanged. -/
theorem run_value : θ_run (defs (F := Ideal)) (onTc (τ := τ) (main (F := Ideal))) ⟨m, fun _ => 0, ρ⟩ (fun r => ∀ c : Dev nD,
      r.2.mem ((c.tc : Thread nD τ).loc main_v0_0) = Cert.Spec.logitsG (cv m ρ c) (base m ρ c) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_v0_1) = Cert.Spec.featG (cv m ρ c) (base m ρ c) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c => ⟨(h c).1.trans (logits_value m ρ c), (h c).2.1.trans (feat_value m ρ c), (h c).2.2⟩)
    (Run.run_named (F := Ideal) m ρ)

end Cert.KernelIdeal.Value

end
-- ==== Proof.RefBody.lean ====
/-
  One image's block through the network, entry by entry.

  The body takes the image's flattened padded plane (960 rows of 64 channels), builds the 840 × 576 patch matrix by
  three row shifts (0, 1, 2: the three columns of a 3 × 3 window) and three more (0, 30, 60: its three rows), multiplies by
  the 576 × 256 convolution weights, adds the bias and rectifies: `convRelu`, kept closed.  Everything after it is read
  here at one entry: the pooling row broadcast to 8 rows times the 840 × 256 rectified convolution is, in every one of the
  8 rows, the pooling-weighted column sums; the bottleneck and the classifier are one matrix product, one bias and (for the
  bottleneck) one rectifier each.  At the exact values a change of float format is the identity.
-/
import proofs.«109567_g2000602488113785_pallaspilot1_138_2_alg».proof.Proof.Gen.ReferenceIdeal.Skeleton
import proofs.«109567_g2000602488113785_pallaspilot1_138_2_alg».proof.Proof.Spec
import proofs.«109567_g2000602488113785_pallaspilot1_138_2_alg».proof.Proof.LibMatmul
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The rectified 3 × 3 convolution of one image's block: the patch matrix (three row shifts by 0, 1, 2 side by side, then
    three row shifts by 0, 30, 60 of that side by side), times the weights, plus the bias, rectified. -/
def convRelu (v : Vec Ideal S1x960x64 .bf16) (w : Vec Ideal S576x256 .bf16) (b : Vec Ideal S1x256 .f32) : FVec Ideal S840x256 .f32 :=
  have v1 : FVec Ideal S960x64 .bf16 := shapeCast S960x64 v shapeCasts_S1x960x64_S960x64
  have v2 : FVec Ideal S900x64 .bf16 := extractStridedSlice S900x64 ![0, 0] v1 slices_S960x64_o0_0_S900x64
  have v3 : FVec Ideal S900x64 .bf16 := extractStridedSlice S900x64 ![1, 0] v1 slices_S960x64_o1_0_S900x64
  have v4 : FVec Ideal S900x64 .bf16 := extractStridedSlice S900x64 ![2, 0] v1 slices_S960x64_o2_0_S900x64
  have v5 : FVec Ideal S900x192 .bf16 := concatenate S900x192 1 [⟨S900x64, v2⟩, ⟨S900x64, v3⟩, ⟨S900x64, v4⟩] concatenates_S900x64_S900x64_S900x64_S900x192_d1
  have v6 : FVec Ideal S840x192 .bf16 := extractStridedSlice S840x192 ![0, 0] v5 slices_S900x192_o0_0_S840x192
  have v7 : FVec Ideal S840x192 .bf16 := extractStridedSlice S840x192 ![30, 0] v5 slices_S900x192_o30_0_S840x192
  have v8 : FVec Ideal S840x192 .bf16 := extractStridedSlice S840x192 ![60, 0] v5 slices_S900x192_o60_0_S840x192
  have v9 : FVec Ideal S840x576 .bf16 := concatenate S840x576 1 [⟨S840x192, v6⟩, ⟨S840x192, v7⟩, ⟨S840x192, v8⟩] concatenates_S840x192_S840x192_S840x192_S840x576_d1
  have cst : FVec Ideal S840x256 .f32 := constant S840x256 .f32 0x00000000#32
  have v11 : FVec Ideal S840x256 .f32 := matmul (φ₂ := .bf16) dot_S840x576_S576x256_S840x256_1_0_0_1_n_n none v9 w cst
  have v13 : FVec Ideal S840x256 .f32 := broadcastTo S840x256 b broadcasts_S1x256_S840x256
  have v14 : FVec Ideal S840x256 .f32 := addf v11 v13
  have cst_6 : Ideal .f32 := Scalar.ofBits .f32 0x00000000#32
  have v15 : FVec Ideal S840x256 .f32 := broadcast S840x256 cst_6
  have v16 : FVec Ideal S840x256 .f32 := maximumf v14 v15
  v16

/-- The pooled rows: the pooling row, broadcast to 8 rows, times the rectified convolution. -/
def poolBlock (cv : FVec Ideal S840x256 .f32) (v17 : Vec Ideal S1x840 .f32) : FVec Ideal S8x256 .f32 :=
  have v18 : FVec Ideal S1x840 .f32 := shapeCast S1x840 v17 shapeCasts_S1x840_S1x840
  have v19 : FVec Ideal S1x840 .f32 := shapeCast S1x840 v18 shapeCasts_S1x840_S1x840
  have v20 : FVec Ideal S8x840 .f32 := broadcastTo S8x840 v19 broadcasts_S1x840_S8x840
  have cst_9 : FVec Ideal S8x256 .f32 := constant S8x256 .f32 0x00000000#32
  have v21 : FVec Ideal S8x256 .f32 := matmul dot_S8x840_S840x256_S8x256_1_0_0_1_n_n none v20 cv cst_9
  v21

/-- The bottleneck rows: the pooled rows times `w1`, plus `b1`, rectified. -/
def embBlock (cv : FVec Ideal S840x256 .f32) (v17 : Vec Ideal S1x840 .f32) (v23 : Vec Ideal S256x256 .bf16) (v25 : Vec Ideal S1x256 .f32) :
    FVec Ideal S8x256 .f32 :=
  have v22 : FVec Ideal S8x256 .bf16 := truncf .bf16 (poolBlock cv v17) bitsLt_bf16_f32
  have cst_12 : FVec Ideal S8x256 .f32 := constant S8x256 .f32 0x00000000#32
  have v24 : FVec Ideal S8x256 .f32 := matmul (φ₂ := .bf16) dot_S8x256_S256x256_S8x256_1_0_0_1_n_n none v22 v23 cst_12
  have v26 : FVec Ideal S8x256 .f32 := broadcastTo S8x256 v25 broadcasts_S1x256_S8x256
  have v27 : FVec Ideal S8x256 .f32 := addf v24 v26
  have cst_15 : Ideal .f32 := Scalar.ofBits .f32 0x00000000#32
  have v28 : FVec Ideal S8x256 .f32 := broadcast S8x256 cst_15
  have v29 : FVec Ideal S8x256 .f32 := maximumf v27 v28
  v29

/-- The classifier rows: the bottleneck rows times `w2`, plus `b2`. -/
def logitBlock (em : FVec Ideal S8x256 .f32) (v31 : Vec Ideal S256x1024 .bf16) (v33 : Vec Ideal S1x1024 .f32) : FVec Ideal S8x1024 .f32 :=
  have v30 : FVec Ideal S8x256 .bf16 := truncf .bf16 em bitsLt_bf16_f32
  have cst_18 : FVec Ideal S8x1024 .f32 := constant S8x1024 .f32 0x00000000#32
  have v32 : FVec Ideal S8x1024 .f32 := matmul (φ₂ := .bf16) dot_S8x256_S256x1024_S8x1024_1_0_0_1_n_n none v30 v31 cst_18
  have v34 : FVec Ideal S8x1024 .f32 := broadcastTo S8x1024 v33 broadcasts_S1x1024_S8x1024
  have v35 : FVec Ideal S8x1024 .f32 := addf v32 v34
  v35

/-- The body's bottleneck payload is `embBlock` of `convRelu` of its loads. -/
theorem pay3_eq (v0 : Vec Ideal S1x960x64 .bf16) (v10 : Vec Ideal S576x256 .bf16) (v12 : Vec Ideal S1x256 .f32) (v17 : Vec Ideal S1x840 .f32)
    (v23 : Vec Ideal S256x256 .bf16) (v25 : Vec Ideal S1x256 .f32) :
    k0_pay3 (F := Ideal) v0 v10 v12 v17 v23 v25 = embBlock (convRelu v0 v10 v12) v17 v23 v25 := rfl

/-- The body's classifier payload is `logitBlock` of the bottleneck payload. -/
theorem pay4_eq (v0 : Vec Ideal S1x960x64 .bf16) (v10 : Vec Ideal S576x256 .bf16) (v12 : Vec Ideal S1x256 .f32) (v17 : Vec Ideal S1x840 .f32)
    (v23 : Vec Ideal S256x256 .bf16) (v25 : Vec Ideal S1x256 .f32) (v31 : Vec Ideal S256x1024 .bf16) (v33 : Vec Ideal S1x1024 .f32) :
    k0_pay4 (F := Ideal) v0 v10 v12 v17 v23 v25 v31 v33 = logitBlock (embBlock (convRelu v0 v10 v12) v17 v23 v25) v31 v33 := rfl

end Cert.ReferenceIdeal.RefValue

end
-- ==== Proof.RefDefs.lean ====
/-
  The names the reference's result is stated over.

  `xflat` is the batch of flattened padded planes as the region finds it (256 images × 960 plane rows × 64 channels) and
  `imgBlock xflat n` image `n`'s plane as a 1 × 960 × 64 block; `base` is the row of pooling weights (before it is reshaped to
  1 × 840); `cv n` is image `n`'s rectified convolution.  None of the three is ever evaluated.
-/
import proofs.«109567_g2000602488113785_pallaspilot1_138_2_alg».proof.Proof.Gen.ReferenceIdeal.Frame
import proofs.«109567_g2000602488113785_pallaspilot1_138_2_alg».proof.Proof.RefBody

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem

variable (m : (ℓ : Loc nD τ sig) → Buf (Elt Ideal) ℓ)

/-- Image `n`'s plane out of the batch, as a block with a leading unit axis. -/
def imgBlock (xf : S256x960x64.Idx → EReal) (n : Fin 256) : S1x960x64.Idx → EReal :=
  fun y => xf (ix3 n (y 1 : Fin 960) (y 2 : Fin 64))

/-- The batch of flattened padded planes, as the region finds it. -/
def xflat (c : Dev nD) : S256x960x64.Idx → EReal := Gen.V m c main_call0_v3

/-- The row of pooling weights, as the region finds it. -/
def base (c : Dev nD) : S840.Idx → EReal := Gen.V m c main_call0_v8

/-- Image `n`'s rectified convolution. -/
def cv (c : Dev nD) (n : Fin 256) : S840x256.Idx → EReal :=
  convRelu (imgBlock (xflat m c) n) (m ((c : Thread nD τ).loc main_arg1)) (m ((c : Thread nD τ).loc main_arg2))

end Cert.ReferenceIdeal.RefValue

end
-- ==== Proof.RefHost.lean ====
/-
  The reference's host side before its region, read: the region finds the flattened padded input images — channels moved
  last, a halo of zeros (one row above, three below, one column each side), the change of float format (the identity on the
  exact values), the 32 × 30 plane flattened to 960 rows.
-/
import proofs.«109567_g2000602488113785_pallaspilot1_138_2_alg».proof.Proof.RefDefs
import Idealize.ShloMosaic.Lib.StableHlo.Run

set_option maxRecDepth 16384

noncomputable section

namespace Cert.ReferenceIdeal.RefHost

open Idealize.ShloMosaic Idealize.ShloMosaic.TcCoe Cert.ReferenceIdeal Cert.ReferenceIdeal.Gen
open Idealize.ShloMosaic.StableHlo

variable (m : (ℓ : Loc nD τ sig) → Buf (Elt Ideal) ℓ)

/-- The flattened padded images as a function of the input images. -/
def flatOf (x : FVec Ideal S256x64x28x28 .f32) : FVec Ideal S256x960x64 .bf16 :=
  shapeCast S256x960x64
    (truncf .bf16
      (pad S256x32x30x64 ![0, 1, 1, 0] ![0, 3, 1, 0] ![0, 0, 0, 0]
        (transpose S256x28x28x64 [0, 2, 3, 1] x transposes_S256x64x28x28_S256x28x28x64_0_2_3_1)
        (sitofp .f32 (constantI S_ 32 0#32)) pads_S256x28x28x64_S256x32x30x64_000_130_110_000 h_S_)
      bitsLt_bf16_f32)
    shapeCasts_S256x32x30x64_S256x960x64

/-- The region finds the flattened padded input images. -/
theorem xflat_eq (c : Dev nD) : RefValue.xflat m c = flatOf (m ((c : Thread nD τ).loc main_arg0)) := by
  show StableHlo.after hostOps0 (fun b => m (c, b)) (Proc.devRef .tc main_call0_v3) = _
  after_results
  rfl

end Cert.ReferenceIdeal.RefHost

end
-- ==== Proof.RefEntry.lean ====
/-
  The body's three matrix products read at one entry.

  Row `j` of the pooled block does not depend on `j`: the left factor is the pooling row repeated, so entry `(j, f)` is
  `∑ r, base r · cv (r, f)`.  The bottleneck entry `(j, e)` is `max (∑ f, pooled f · w1 (f, e) + b1 (0, e)) 0` and the
  classifier entry `(j, q)` is `∑ e, emb e · w2 (e, q) + b2 (0, q)`; the biases are rows repeated down the 8 rows.
-/
import proofs.«109567_g2000602488113785_pallaspilot1_138_2_alg».proof.Proof.RefBody

noncomputable section

open scoped BigOperators

namespace Cert.ReferenceIdeal.RefValue

open Cert.ReferenceIdeal Cert.ReferenceIdeal.Gen Idealize.ShloMosaic Idealize.ShloMosaic.ValueIdx

/-- The pooling row as a function of the plane position alone. -/
def rowOf (v17 : Vec Ideal S1x840 .f32) : S840.Idx → EReal := fun r => v17 (ix2 (0 : Fin 1) (r 0 : Fin 840))

theorem poolBlock_apply (cv : FVec Ideal S840x256 .f32) (v17 : Vec Ideal S1x840 .f32) (j : Fin 8) (f : Fin 256) :
    poolBlock cv v17 (ix2 j f) = Cert.Spec.pooledOf (rowOf v17) cv f := by
  unfold poolBlock Cert.Spec.pooledOf
  refine (Cert.LibMatmul.matmul_plain_zero_apply (M := 8) (K := 840) (N := 256) none _ cv j f).trans ?_
  refine Finset.sum_congr rfl fun r _ => ?_
  refine congrArg (· * cv (ix2 r f)) ?_
  rw [shapeCast_self, shapeCast_self]
  exact broadcastTo_apply v17 broadcasts_S1x840_S8x840 (ix2 j r) (ix2 (0 : Fin 1) r)
    (fun a => by match a with | ⟨0, _⟩ => rfl | ⟨1, _⟩ => rfl)

theorem embBlock_apply (cv : FVec Ideal S840x256 .f32) (v17 : Vec Ideal S1x840 .f32) (v23 : Vec Ideal S256x256 .bf16) (v25 : Vec Ideal S1x256 .f32)
    (j : Fin 8) (e : Fin 256) :
    embBlock cv v17 v23 v25 (ix2 j e) = Cert.Spec.embOf (Cert.Spec.pooledOf (rowOf v17) cv) v23 v25 e := by
  unfold embBlock Cert.Spec.embOf
  refine congrArg₂ max (congrArg₂ (· + ·) ?_ ?_) rfl
  · refine (Cert.LibMatmul.matmul_plain_zero_apply (M := 8) (K := 256) (N := 256) (φ₂ := .bf16) none _ v23 j e).trans ?_
    refine Finset.sum_congr rfl fun f _ => ?_
    exact congrArg (· * v23 (ix2 f e)) (poolBlock_apply cv v17 j f)
  · exact broadcastTo_apply v25 broadcasts_S1x256_S8x256 (ix2 j e) (ix2 (0 : Fin 1) e)
      (fun a => by match a with | ⟨0, _⟩ => rfl | ⟨1, _⟩ => rfl)

theorem logitBlock_apply (em : FVec Ideal S8x256 .f32) (emr : Fin 256 → EReal) (v31 : Vec Ideal S256x1024 .bf16) (v33 : Vec Ideal S1x1024 .f32)
    (j : Fin 8) (hem : ∀ e : Fin 256, em (ix2 j e) = emr e) (q : Fin 1024) :
    logitBlock em v31 v33 (ix2 j q) = Cert.Spec.logitOf emr v31 v33 q := by
  unfold logitBlock Cert.Spec.logitOf
  refine congrArg₂ (· + ·) ?_ ?_
  · refine (Cert.LibMatmul.matmul_plain_zero_apply (M := 8) (K := 256) (N := 1024) (φ₂ := .bf16) none _ v31 j q).trans ?_
    refine Finset.sum_congr rfl fun e _ => ?_
    exact congrArg (· * v31 (ix2 e q)) (hem e)
  · exact broadcastTo_apply v33 broadcasts_S1x1024_S8x1024 (ix2 j q) (ix2 (0 : Fin 1) q)
      (fun a => by match a with | ⟨0, _⟩ => rfl | ⟨1, _⟩ => rfl)

end Cert.ReferenceIdeal.RefValue

end
-- ==== Proof.RefReads.lean ====
/-
  What each input window's block holds at a grid point, and the pooling row behind its reshape.

  Point `t` is image `t`: the image window's block index is `(t, 0, 0)`, so its block is plane `t` of the batch; the seven
  other input windows are whole arrays (block index `(0, 0)` at every point), so each block is the array itself.  The two
  output windows move with the image: block index `(t, 0, 0)`.  The pooling row the region reads is the host's 840-vector
  viewed as 1 × 840: entry `(0, r)` of the one is entry `r` of the other.
-/
import proofs.«109567_g2000602488113785_pallaspilot1_138_2_alg».proof.Proof.RefDefs
import proofs.«109567_g2000602488113785_pallaspilot1_138_2_alg».proof.Proof.RefEntry
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- Grid point `t` as an image number. -/
def img (t : Fin cfg0.N) : Fin 256 := ⟨t.val, lt_of_lt_of_eq t.isLt N_0⟩

theorem img_val (t : Fin cfg0.N) : (img t).val = t.val := rfl

/-- The image window and the two output windows sit at block `(t, 0, 0)`. -/
theorem idx_moving : ∀ t : Fin cfg0.N,
    (win0_0.index t (0 : Fin 3) = t.val ∧ win0_0.index t (1 : Fin 3) = 0 ∧ win0_0.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The other input windows sit at block `(0, 0)` at every point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The image window's block at point `t` is plane `t` of the batch. -/
theorem iblk0_eq (c : Dev nD) (t : Fin cfg0.N) :
    (iblk m c 0 t : Vec Ideal S1x960x64 .bf16) = imgBlock (xflat m c) (img t) := by
  obtain ⟨⟨e0, e1, e2⟩, -, -⟩ := idx_moving t
  funext y
  unfold imgBlock xflat
  show V m c main_call0_v3 (((cfg0.win 0).blk t).view.emb y) = V m c main_call0_v3 (ix3 (img t) (y 1 : Fin 960) (y 2 : Fin 64))
  refine congrArg (V m c main_call0_v3) (funext fun a => Fin.ext ?_)
  have hy : (y 0).val < 1 := (y 0).isLt
  match a with
  | ⟨0, _⟩ => show win0_0.index t (0 : Fin 3) * 1 + 1 * (y 0).val = t.val; omega
  | ⟨1, _⟩ => show win0_0.index t (1 : Fin 3) * 960 + 1 * (y 1).val = (y 1).val; omega
  | ⟨2, _⟩ => show win0_0.index t (2 : Fin 3) * 64 + 1 * (y 2).val = (y 2).val; omega

/-- Window 1 stages its whole array: its block at any point is the array as the region finds it. -/
theorem iblk1_V (c : Dev nD) (t : Fin cfg0.N) : (iblk m c 1 t : Vec Ideal S1x840 .f32) = V m c main_call0_v10 := by
  obtain ⟨⟨e0, e1⟩, -, -, -, -, -, -⟩ := idx_whole t
  funext y
  show V m c main_call0_v10 (((cfg0.win 1).blk t).view.emb y) = V m c main_call0_v10 y
  refine congrArg (V m c main_call0_v10) (funext fun a => Fin.ext ?_)
  match a with
  | ⟨0, _⟩ => show win0_1.index t (0 : Fin 2) * 1 + 1 * (y 0).val = (y 0).val; omega
  | ⟨1, _⟩ => show win0_1.index t (1 : Fin 2) * 840 + 1 * (y 1).val = (y 1).val; omega

/-- Window 2 stages its whole array: its block at any point is the array as the region finds it. -/
theorem iblk2_V (c : Dev nD) (t : Fin cfg0.N) : (iblk m c 2 t : Vec Ideal S576x256 .bf16) = V m c main_arg1 := by
  obtain ⟨-, ⟨e0, e1⟩, -, -, -, -, -⟩ := idx_whole t
  funext y
  show V m c main_arg1 (((cfg0.win 2).blk t).view.emb y) = V m c main_arg1 y
  refine congrArg (V m c main_arg1) (funext fun a => Fin.ext ?_)
  match a with
  | ⟨0, _⟩ => show win0_2.index t (0 : Fin 2) * 576 + 1 * (y 0).val = (y 0).val; omega
  | ⟨1, _⟩ => show win0_2.index t (1 : Fin 2) * 256 + 1 * (y 1).val = (y 1).val; omega

theorem iblk2_eq (c : Dev nD) (t : Fin cfg0.N) : (iblk m c 2 t : Vec Ideal S576x256 .bf16) = m ((c : Thread nD τ).loc main_arg1) :=
  (iblk2_V m c t).trans (V_main_arg1 m c)

/-- Window 3 stages its whole array: its block at any point is the array as the region finds it. -/
theorem iblk3_V (c : Dev nD) (t : Fin cfg0.N) : (iblk m c 3 t : Vec Ideal S1x256 .f32) = V m c main_arg2 := by
  obtain ⟨-, -, ⟨e0, e1⟩, -, -, -, -⟩ := idx_whole t
  funext y
  show V m c main_arg2 (((cfg0.win 3).blk t).view.emb y) = V m c main_arg2 y
  refine congrArg (V m c main_arg2) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk3_eq (c : Dev nD) (t : Fin cfg0.N) : (iblk m c 3 t : Vec Ideal S1x256 .f32) = m ((c : Thread nD τ).loc main_arg2) :=
  (iblk3_V m c t).trans (V_main_arg2 m c)

/-- Window 4 stages its whole array: its block at any point is the array as the region finds it. -/
theorem iblk4_V (c : Dev nD) (t : Fin cfg0.N) : (iblk m c 4 t : Vec Ideal S256x256 .bf16) = V m c main_arg3 := by
  obtain ⟨-, -, -, ⟨e0, e1⟩, -, -, -⟩ := idx_whole t
  funext y
  show V m c main_arg3 (((cfg0.win 4).blk t).view.emb y) = V m c main_arg3 y
  refine congrArg (V m c main_arg3) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem iblk4_eq (c : Dev nD) (t : Fin cfg0.N) : (iblk m c 4 t : Vec Ideal S256x256 .bf16) = m ((c : Thread nD τ).loc main_arg3) :=
  (iblk4_V m c t).trans (V_main_arg3 m c)

/-- Window 5 stages its whole array: its block at any point is the array as the region finds it. -/
theorem iblk5_V (c : Dev nD) (t : Fin cfg0.N) : (iblk m c 5 t : Vec Ideal S1x256 .f32) = V m c main_arg4 := by
  obtain ⟨-, -, -, -, ⟨e0, e1⟩, -, -⟩ := idx_whole t
  funext y
  show V m c main_arg4 (((cfg0.win 5).blk t).view.emb y) = V m c main_arg4 y
  refine congrArg (V m c main_arg4) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem iblk5_eq (c : Dev nD) (t : Fin cfg0.N) : (iblk m c 5 t : Vec Ideal S1x256 .f32) = m ((c : Thread nD τ).loc main_arg4) :=
  (iblk5_V m c t).trans (V_main_arg4 m c)

/-- Window 6 stages its whole array: its block at any point is the array as the region finds it. -/
theorem iblk6_V (c : Dev nD) (t : Fin cfg0.N) : (iblk m c 6 t : Vec Ideal S256x1024 .bf16) = V m c main_arg5 := by
  obtain ⟨-, -, -, -, -, ⟨e0, e1⟩, -⟩ := idx_whole t
  funext y
  show V m c main_arg5 (((cfg0.win 6).blk t).view.emb y) = V m c main_arg5 y
  refine congrArg (V m c main_arg5) (funext fun a => Fin.ext ?_)
  match a with
  | ⟨0, _⟩ => show win0_6.index t (0 : Fin 2) * 256 + 1 * (y 0).val = (y 0).val; omega
  | ⟨1, _⟩ => show win0_6.index t (1 : Fin 2) * 1024 + 1 * (y 1).val = (y 1).val; omega

theorem iblk6_eq (c : Dev nD) (t : Fin cfg0.N) : (iblk m c 6 t : Vec Ideal S256x1024 .bf16) = m ((c : Thread nD τ).loc main_arg5) :=
  (iblk6_V m c t).trans (V_main_arg5 m c)

/-- Window 7 stages its whole array: its block at any point is the array as the region finds it. -/
theorem iblk7_V (c : Dev nD) (t : Fin cfg0.N) : (iblk m c 7 t : Vec Ideal S1x1024 .f32) = V m c main_arg6 := by
  obtain ⟨-, -, -, -, -, -, ⟨e0, e1⟩⟩ := idx_whole t
  funext y
  show V m c main_arg6 (((cfg0.win 7).blk t).view.emb y) = V m c main_arg6 y
  refine congrArg (V m c main_arg6) (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

theorem iblk7_eq (c : Dev nD) (t : Fin cfg0.N) : (iblk m c 7 t : Vec Ideal S1x1024 .f32) = m ((c : Thread nD τ).loc main_arg6) :=
  (iblk7_V m c t).trans (V_main_arg6 m c)

/-- The pooling row the region reads is the host's 840-vector reshaped to 1 × 840 (through an identity conversion). -/
theorem V_pool (c : Dev nD) :
    (V m c main_call0_v10 : S1x840.Idx → EReal) = shapeCast S1x840 (base m c) shapeCasts_S840_S1x840 := by
  unfold base
  show StableHlo.after (hostOps0 (F := Ideal)) _ (Proc.devRef .tc main_call0_v10)
    = shapeCast S1x840 (StableHlo.after (hostOps0 (F := Ideal)) _ (Proc.devRef .tc main_call0_v8)) shapeCasts_S840_S1x840
  simp only [StableHlo.after_cons, StableHlo.after_nil]
  rw [StableHlo.reshape_result, StableHlo.unary_result]
  rw [StableHlo.reshape_result_ne]; rotate_left; decide
  rw [StableHlo.unary_result_ne]; rotate_left; decide
  rfl

/-- Read by plane position, it is the host's vector. -/
theorem row_eq (c : Dev nD) : rowOf (V m c main_call0_v10) = base m c := by
  funext r
  unfold rowOf
  rw [V_pool]
  refine (shapeCast_apply (base m c) shapeCasts_S840_S1x840 (ix2 (0 : Fin 1) (r 0 : Fin 840)) r ?_).trans rfl
  rw [Shape.rowMajor_val_one, Shape.rowMajor_val_two]
  show (r 0).val = 0 * 840 + (r 0).val
  omega

end Cert.ReferenceIdeal.RefValue

end
-- ==== Proof.RefOut8.lean ====
/-
  The classifier output array, from blocks to one function.

  Point `t` writes the 1 × 8 × 1024 block of image `t`: each of its 8 rows is the image's 1024 logits.  The blocks tile the
  256 × 8 × 1024 array along its first axis, so the array ends holding, at `(n, j, q)`, logit `q` of image `n`.
-/
import proofs.«109567_g2000602488113785_pallaspilot1_138_2_alg».proof.Proof.RefReads

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Logit `q` of image `n`. -/
def logitRow (c : Dev nD) (n : Fin 256) (q : Fin 1024) : EReal :=
  Cert.Spec.logitOf (Cert.Spec.embOf (Cert.Spec.pooledOf (base m c) (cv m c n)) (m ((c : Thread nD τ).loc main_arg3)) (m ((c : Thread nD τ).loc main_arg4))) (m ((c : Thread nD τ).loc main_arg5)) (m ((c : Thread nD τ).loc main_arg6)) q

/-- The whole output array: entry `(n, j, q)` is image `n`'s row at column `q`, the same for each of the 8 rows `j`. -/
def G8 (c : Dev nD) : S256x8x1024.Idx → EReal := fun i => logitRow m c (i 0 : Fin 256) (i 2 : Fin 1024)

/-- The store's reshape [8, 1024] → [1, 8, 1024] read at an entry. -/
theorem k0_pay2_apply (v : FVec Ideal S8x1024 .f32) (y : S1x8x1024.Idx) :
    k0_pay2 (F := Ideal) v y = v (ix2 (y 1 : Fin 8) (y 2 : Fin 1024)) := by
  unfold k0_pay2
  refine shapeCast_apply v shapeCasts_S8x1024_S1x8x1024 y (ix2 (y 1 : Fin 8) (y 2 : Fin 1024)) ?_
  rw [Shape.rowMajor_val_two, Shape.rowMajor_val_three]
  have h0 : (y 0).val < 1 := (y 0).isLt
  show (y 1).val * 1024 + (y 2).val = ((y 0).val * 8 + (y 1).val) * 1024 + (y 2).val
  omega

/-- What the body stores, at an entry, from the blocks it loads. -/
theorem out8_entry (x0 : Vec Ideal S1x960x64 .bf16) (x1 : Vec Ideal S1x840 .f32) (x2 : Vec Ideal S576x256 .bf16) (x3 : Vec Ideal S1x256 .f32)
    (x4 : Vec Ideal S256x256 .bf16) (x5 : Vec Ideal S1x256 .f32) (x6 : Vec Ideal S256x1024 .bf16) (x7 : Vec Ideal S1x1024 .f32) (y : S1x8x1024.Idx) :
    k0_pay2 (F := Ideal) (k0_pay4 x0 x2 x3 x1 x4 x5 x6 x7) y
      = Cert.Spec.logitOf (Cert.Spec.embOf (Cert.Spec.pooledOf (rowOf x1) (convRelu x0 x2 x3)) x4 x5) x6 x7 (y 2 : Fin 1024) := by
  rw [k0_pay2_apply, pay4_eq]
  exact logitBlock_apply _ _ x6 x7 (y 1 : Fin 8) (fun e => embBlock_apply (convRelu x0 x2 x3) x1 x4 x5 (y 1 : Fin 8) e) (y 2 : Fin 1024)

/-- The 8 × 1024 block that grid point `t` writes is image `t`'s slab of the whole-array function. -/
theorem flushed8_eq (c : Dev nD) (t : Fin cfg0.N) :
    (dats m 0 c).flushed 8 t = ((cfg0.win 8).blk t).view.read (Elt Ideal) (G8 m c) := by
  obtain ⟨-, ⟨e0, e1, e2⟩, -⟩ := idx_moving t
  show (cfg0.win 8).cut (grid0.coords t) ((dats m 0 c).after 8 t) = _
  rw [after0_8]
  unfold out0_8
  rw [View.canon_unit_zero hz3]
  simp only [View.ld_unit_zero (S := S1x960x64) hz3, View.ld_unit_zero (S := S576x256) hz2, View.ld_unit_zero (S := S1x256) hz2,
    View.ld_unit_zero (S := S1x840) hz2, View.ld_unit_zero (S := S256x256) hz2, View.ld_unit_zero (S := S256x1024) hz2, View.ld_unit_zero (S := S1x1024) hz2]
  rw [iblk0_eq m c t, iblk1_V m c t, iblk2_eq m c t, iblk3_eq m c t, iblk4_eq m c t, iblk5_eq m c t, iblk6_eq m c t, iblk7_eq m c t]
  funext j
  refine (out8_entry (imgBlock (xflat m c) (img t)) (V m c main_call0_v10) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ((cfg0.win 8).xinj (grid0.coords t) j)).trans ?_
  rw [row_eq m c]
  show logitRow m c (img t) _ = logitRow m c ((((cfg0.win 8).blk t).view.emb j) 0) ((((cfg0.win 8).blk t).view.emb j) 2)
  refine congrArg₂ (logitRow m c) (Fin.ext ?_) (Fin.ext ?_)
  · have hj : (j 0).val < 1 := (j 0).isLt
    show t.val = win0_8.index t (0 : Fin 3) * 1 + 1 * (j 0).val
    omega
  · show (j 2).val = win0_8.index t (2 : Fin 3) * 1024 + 1 * (j 2).val
    omega

/-- An index of the array is in point `t`'s block iff each coordinate is in the block's range on its axis. -/
theorem mem_blk8 (t : Fin cfg0.N) (i : S256x8x1024.Idx) :
    i ∈ ((cfg0.win 8).blk t).view.set ↔ ∀ a : Fin 3, win0_8.index t a * S1x8x1024.size a ≤ (i a).val ∧ (i a).val < win0_8.index t a * S1x8x1024.size a + S1x8x1024.size a := by
  show i ∈ ((View.whole main_call0_v11_0).slice (win0_8.rect t)).set ↔ _
  rw [View.set_slice_whole, Rect.mem_set_unit]
  exact Iff.rfl

/-- Every entry of the array is in the block of the point that is its image. -/
theorem cover8 (i : S256x8x1024.Idx) :
    ∃ t : Fin cfg0.N, (cfg0.win 8).flush t = true ∧ i ∈ ((cfg0.win 8).blk t).view.set := by
  have hi0 : (i 0).val < 256 := (i 0).isLt
  have hi1 : (i 1).val < 8 := (i 1).isLt
  have hi2 : (i 2).val < 1024 := (i 2).isLt
  have hN : cfg0.N = 256 := N_0
  obtain ⟨t, ht⟩ : ∃ t : Fin cfg0.N, t.val = (i 0).val := ⟨⟨(i 0).val, by omega⟩, rfl⟩
  obtain ⟨-, ⟨e0, e1, e2⟩, -⟩ := idx_moving t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 8 ≤ (i 1).val ∧ (i 1).val < win0_8.index t (1 : Fin 3) * 8 + 8; omega
  | ⟨2, _⟩ => show win0_8.index t (2 : Fin 3) * 1024 ≤ (i 2).val ∧ (i 2).val < win0_8.index t (2 : Fin 3) * 1024 + 1024; omega

/-- One image per point and 256 points: the logits array the region leaves is the whole-array function. -/
theorem final8 (c : Dev nD) : (dats m 0 c).arrAt 8 cfg0.N = G8 m c :=
  (dats m 0 c).arrAt_eq_of_cover 8 (G8 m c) (fun t _ => flushed8_eq m c t) (cover8)

end Cert.ReferenceIdeal.RefValue

end
-- ==== Proof.RefOut9.lean ====
/-
  The bottleneck output array, from blocks to one function.

  Point `t` writes the 1 × 8 × 256 block of image `t`: each of its 8 rows is the image's 256 bottleneck features.  The blocks
  tile the 256 × 8 × 256 array along its first axis, so the array ends holding, at `(n, j, e)`, feature `e` of image `n`.
-/
import proofs.«109567_g2000602488113785_pallaspilot1_138_2_alg».proof.Proof.RefReads

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Bottleneck feature `e` of image `n`. -/
def embRow (c : Dev nD) (n : Fin 256) (e : Fin 256) : EReal :=
  Cert.Spec.embOf (Cert.Spec.pooledOf (base m c) (cv m c n)) (m ((c : Thread nD τ).loc main_arg3)) (m ((c : Thread nD τ).loc main_arg4)) e

/-- The whole output array: entry `(n, j, q)` is image `n`'s row at column `q`, the same for each of the 8 rows `j`. -/
def G9 (c : Dev nD) : S256x8x256.Idx → EReal := fun i => embRow m c (i 0 : Fin 256) (i 2 : Fin 256)

/-- The store's reshape [8, 256] → [1, 8, 256] read at an entry. -/
theorem k0_pay1_apply (v : FVec Ideal S8x256 .f32) (y : S1x8x256.Idx) :
    k0_pay1 (F := Ideal) v y = v (ix2 (y 1 : Fin 8) (y 2 : Fin 256)) := by
  unfold k0_pay1
  refine shapeCast_apply v shapeCasts_S8x256_S1x8x256 y (ix2 (y 1 : Fin 8) (y 2 : Fin 256)) ?_
  rw [Shape.rowMajor_val_two, Shape.rowMajor_val_three]
  have h0 : (y 0).val < 1 := (y 0).isLt
  show (y 1).val * 256 + (y 2).val = ((y 0).val * 8 + (y 1).val) * 256 + (y 2).val
  omega

/-- What the body stores, at an entry, from the blocks it loads. -/
theorem out9_entry (x0 : Vec Ideal S1x960x64 .bf16) (x1 : Vec Ideal S1x840 .f32) (x2 : Vec Ideal S576x256 .bf16) (x3 : Vec Ideal S1x256 .f32)
    (x4 : Vec Ideal S256x256 .bf16) (x5 : Vec Ideal S1x256 .f32) (y : S1x8x256.Idx) :
    k0_pay1 (F := Ideal) (k0_pay3 x0 x2 x3 x1 x4 x5) y
      = Cert.Spec.embOf (Cert.Spec.pooledOf (rowOf x1) (convRelu x0 x2 x3)) x4 x5 (y 2 : Fin 256) := by
  rw [k0_pay1_apply, pay3_eq]
  exact embBlock_apply (convRelu x0 x2 x3) x1 x4 x5 (y 1 : Fin 8) (y 2 : Fin 256)

/-- The 8 × 256 block that grid point `t` writes is image `t`'s slab of the whole-array function. -/
theorem flushed9_eq (c : Dev nD) (t : Fin cfg0.N) :
    (dats m 0 c).flushed 9 t = ((cfg0.win 9).blk t).view.read (Elt Ideal) (G9 m c) := by
  obtain ⟨-, -, ⟨e0, e1, e2⟩⟩ := idx_moving t
  show (cfg0.win 9).cut (grid0.coords t) ((dats m 0 c).after 9 t) = _
  rw [after0_9]
  unfold out0_9
  rw [View.canon_unit_zero hz3]
  simp only [View.ld_unit_zero (S := S1x960x64) hz3, View.ld_unit_zero (S := S576x256) hz2, View.ld_unit_zero (S := S1x256) hz2,
    View.ld_unit_zero (S := S1x840) hz2, View.ld_unit_zero (S := S256x256) hz2]
  rw [iblk0_eq m c t, iblk1_V m c t, iblk2_eq m c t, iblk3_eq m c t, iblk4_eq m c t, iblk5_eq m c t]
  funext j
  refine (out9_entry (imgBlock (xflat m c) (img t)) (V m c main_call0_v10) (m ((c : Thread nD τ).loc main_arg1)) (m ((c : Thread nD τ).loc main_arg2)) (m ((c : Thread nD τ).loc main_arg3)) (m ((c : Thread nD τ).loc main_arg4))
    ((cfg0.win 9).xinj (grid0.coords t) j)).trans ?_
  rw [row_eq m c]
  show embRow m c (img t) _ = embRow m c ((((cfg0.win 9).blk t).view.emb j) 0) ((((cfg0.win 9).blk t).view.emb j) 2)
  refine congrArg₂ (embRow m c) (Fin.ext ?_) (Fin.ext ?_)
  · have hj : (j 0).val < 1 := (j 0).isLt
    show t.val = win0_9.index t (0 : Fin 3) * 1 + 1 * (j 0).val
    omega
  · show (j 2).val = win0_9.index t (2 : Fin 3) * 256 + 1 * (j 2).val
    omega

/-- An index of the array is in point `t`'s block iff each coordinate is in the block's range on its axis. -/
theorem mem_blk9 (t : Fin cfg0.N) (i : S256x8x256.Idx) :
    i ∈ ((cfg0.win 9).blk t).view.set ↔ ∀ a : Fin 3, win0_9.index t a * S1x8x256.size a ≤ (i a).val ∧ (i a).val < win0_9.index t a * S1x8x256.size a + S1x8x256.size a := by
  show i ∈ ((View.whole main_call0_v11_1).slice (win0_9.rect t)).set ↔ _
  rw [View.set_slice_whole, Rect.mem_set_unit]
  exact Iff.rfl

/-- Every entry of the array is in the block of the point that is its image. -/
theorem cover9 (i : S256x8x256.Idx) :
    ∃ t : Fin cfg0.N, (cfg0.win 9).flush t = true ∧ i ∈ ((cfg0.win 9).blk t).view.set := by
  have hi0 : (i 0).val < 256 := (i 0).isLt
  have hi1 : (i 1).val < 8 := (i 1).isLt
  have hi2 : (i 2).val < 256 := (i 2).isLt
  have hN : cfg0.N = 256 := N_0
  obtain ⟨t, ht⟩ : ∃ t : Fin cfg0.N, t.val = (i 0).val := ⟨⟨(i 0).val, by omega⟩, rfl⟩
  obtain ⟨-, -, ⟨e0, e1, e2⟩⟩ := idx_moving t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 8 ≤ (i 1).val ∧ (i 1).val < win0_9.index t (1 : Fin 3) * 8 + 8; omega
  | ⟨2, _⟩ => show win0_9.index t (2 : Fin 3) * 256 ≤ (i 2).val ∧ (i 2).val < win0_9.index t (2 : Fin 3) * 256 + 256; omega

/-- One image per point and 256 points: the embedding array the region leaves is the whole-array function. -/
theorem final9 (c : Dev nD) : (dats m 0 c).arrAt 9 cfg0.N = G9 m c :=
  (dats m 0 c).arrAt_eq_of_cover 9 (G9 m c) (fun t _ => flushed9_eq m c t) (cover9)

end Cert.ReferenceIdeal.RefValue

end
-- ==== Proof.RefRun.lean ====
/-
  The reference's results, from the region's two output arrays.

  After the region the host keeps row 0 of each image's 8 identical rows — a slice `[0:256, 0:1, 0:1000]` of the
  256 × 8 × 1024 array viewed as 256 × 1000, and a slice `[0:256, 0:1, 0:256]` of the 256 × 8 × 256 array viewed as
  256 × 256 — so result entry `(n, q)` is array entry `(n, 0, q)`: logit `q < 1000` of image `n`, and bottleneck feature
  `q` of image `n`.  The seven arguments are never written.
-/
import proofs.«109567_g2000602488113785_pallaspilot1_138_2_alg».proof.Proof.RefOut8
import proofs.«109567_g2000602488113785_pallaspilot1_138_2_alg».proof.Proof.RefOut9

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The first result: the first 1000 logits of every image. -/
theorem tail_logits (c : Dev nD) :
    Pipeline.afterTail₀ cfgs (dats m) 0 (V0 m) [hostOps1] c main_v0_0
      = Cert.Spec.logitsG (cv m c) (base m c) (m ((c.tc : Thread nD τ).loc main_arg3)) (m ((c.tc : Thread nD τ).loc main_arg4)) (m ((c.tc : Thread nD τ).loc main_arg5)) (m ((c.tc : Thread nD τ).loc main_arg6)) := by
  have hW : Pipeline.withArrays (cfgs 0).spec c (V0 m c) (fun w => (dats m 0 c).arrAt w (cfgs 0).N) (Proc.devRef .tc main_call0_v11_0) = G8 m c :=
    (Pipeline.withArrays_arr spec0 launch0.win.arr_inj c (V0 m c) (fun w => (dats m 0 c).arrAt w cfg0.N) 8).trans (final8 m c)
  unfold Pipeline.afterTail₀
  show StableHlo.after (hostOps1 (F := Ideal)) _ (Proc.devRef .tc main_v0_0) = _
  after_results
  rw [hW]
  funext i
  obtain ⟨n, q, rfl⟩ : ∃ (n : Fin 256) (q : Fin 1000), i = ix2 n q := ⟨i 0, i 1, eq_ix2 i⟩
  show shapeCast S256x1000 (extractStridedSlice S256x1x1000 ![0, 0, 0] (G8 m c) slices_S256x8x1024_S256x1x1000_0_0_0) shapeCasts_S256x1x1000_S256x1000 (ix2 n q) = _
  refine (shapeCast_apply _ shapeCasts_S256x1x1000_S256x1000 (ix2 n q) (ix3 n (0 : Fin 1) q) ?_).trans ?_
  · rw [Shape.rowMajor_val_three, Shape.rowMajor_val_two]
    show (n.val * 1 + 0) * 1000 + q.val = n.val * 1000 + q.val
    omega
  refine (extractStridedSlice_apply _ (G8 m c) slices_S256x8x1024_S256x1x1000_0_0_0 (ix3 n (0 : Fin 1) q)
    (ix3 n (0 : Fin 8) (Fin.castLE (by norm_num) q : Fin 1024)) ?_).trans ?_
  · intro a
    match a with
    | ⟨0, _⟩ => show n.val = 0 + n.val; omega
    | ⟨1, _⟩ => show (0 : Nat) = 0 + 0; rfl
    | ⟨2, _⟩ => show q.val = 0 + q.val; omega
  rfl

/-- The second result: the bottleneck features of every image. -/
theorem tail_feat (c : Dev nD) :
    Pipeline.afterTail₀ cfgs (dats m) 0 (V0 m) [hostOps1] c main_v0_1
      = Cert.Spec.featG (cv m c) (base m c) (m ((c.tc : Thread nD τ).loc main_arg3)) (m ((c.tc : Thread nD τ).loc main_arg4)) := by
  have hW : Pipeline.withArrays (cfgs 0).spec c (V0 m c) (fun w => (dats m 0 c).arrAt w (cfgs 0).N) (Proc.devRef .tc main_call0_v11_1) = G9 m c :=
    (Pipeline.withArrays_arr spec0 launch0.win.arr_inj c (V0 m c) (fun w => (dats m 0 c).arrAt w cfg0.N) 9).trans (final9 m c)
  unfold Pipeline.afterTail₀
  show StableHlo.after (hostOps1 (F := Ideal)) _ (Proc.devRef .tc main_v0_1) = _
  after_results
  rw [hW]
  funext i
  obtain ⟨n, q, rfl⟩ : ∃ (n : Fin 256) (q : Fin 256), i = ix2 n q := ⟨i 0, i 1, eq_ix2 i⟩
  show shapeCast S256x256 (extractStridedSlice S256x1x256 ![0, 0, 0] (G9 m c) slices_S256x8x256_S256x1x256_0_0_0) shapeCasts_S256x1x256_S256x256 (ix2 n q) = _
  refine (shapeCast_apply _ shapeCasts_S256x1x256_S256x256 (ix2 n q) (ix3 n (0 : Fin 1) q) ?_).trans ?_
  · rw [Shape.rowMajor_val_three, Shape.rowMajor_val_two]
    show (n.val * 1 + 0) * 256 + q.val = n.val * 256 + q.val
    omega
  refine (extractStridedSlice_apply _ (G9 m c) slices_S256x8x256_S256x1x256_0_0_0 (ix3 n (0 : Fin 1) q)
    (ix3 n (0 : Fin 8) q) ?_).trans ?_
  · intro a
    match a with
    | ⟨0, _⟩ => show n.val = 0 + n.val; omega
    | ⟨1, _⟩ => show (0 : Nat) = 0 + 0; rfl
    | ⟨2, _⟩ => show q.val = 0 + q.val; omega
  rfl

/-- The reference's run: both results as the network's functions of the arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v0_0) = Cert.Spec.logitsG (cv m c) (base m c) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = Cert.Spec.featG (cv m c) (base m c) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0_0 (Pipeline.mem_restRefs_of main_v0_0 (by decide) (by decide))).trans (tail_logits m c),
      ((h c).2 main_v0_1 (Pipeline.mem_restRefs_of main_v0_1 (by decide) (by decide))).trans (tail_feat m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (run_main m ρ)

end Cert.ReferenceIdeal.RefValue

end
-- ==== Proof.Bridge.lean ====
/-
  The two programs compute one network.  Each result was read as `Spec.logitsG` / `Spec.featG` of the images' rectified
  convolutions, the row of pooling weights and the head's weights; here the ingredients are matched: the rectified
  convolution is literally the same vector operations in both programs (`conv_eq`), both flatten and pad the input images by
  the same host operations (`flat_eq`, `xflat_bridge`), and both build the pooling-weight row by the same host operations of
  no argument at all (`base_bridge`).
-/
import proofs.«109567_g2000602488113785_pallaspilot1_138_2_alg».proof.Proof.KValue
import proofs.«109567_g2000602488113785_pallaspilot1_138_2_alg».proof.Proof.RefHost
import proofs.«109567_g2000602488113785_pallaspilot1_138_2_alg».proof.Proof.RefRun

set_option maxRecDepth 16384

noncomputable section

namespace Cert.Bridge

open Idealize.ShloMosaic Idealize.ShloMosaic.TcCoe Idealize.SL.Sem
open Idealize.ShloMosaic.StableHlo

/-- One image's rectified convolution is the same function of its block, the weights and the bias in both programs. -/
theorem conv_eq (v : Vec Ideal Cert.KernelIdeal.S1x960x64 .bf16) (w : Vec Ideal Cert.KernelIdeal.S576x256 .bf16) (b : Vec Ideal Cert.KernelIdeal.S1x256 .f32) :
    Cert.ReferenceIdeal.RefValue.convRelu v w b = Cert.KernelIdeal.Pool.convRelu v w b := rfl

/-- Both programs flatten and pad the input images by the same operations. -/
theorem flat_eq (x : FVec Ideal Cert.KernelIdeal.S256x64x28x28 .f32) :
    Cert.ReferenceIdeal.RefHost.flatOf x = Cert.KernelIdeal.Host.flatOf x := rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- From memories agreeing on the input images, both regions find the same flattened padded images. -/
theorem xflat_bridge (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.RefValue.xflat m' c = Cert.KernelIdeal.Value.xflat m ρ c := by
  refine Eq.trans ?_ (Cert.KernelIdeal.Host.xflat_eq m ρ c).symm
  rw [Cert.ReferenceIdeal.RefHost.xflat_eq, h0, flat_eq]

set_option maxHeartbeats 4000000 in
/-- Both programs build the same row of pooling weights, whatever the memories hold. -/
theorem base_bridge (c : Dev Cert.KernelIdeal.nD) :
    Cert.ReferenceIdeal.RefValue.base m' c = Cert.KernelIdeal.Value.base m ρ c := by
  show (StableHlo.after (Cert.ReferenceIdeal.Gen.hostOps0 (F := Ideal)) (fun b => m' (c, b)) (Proc.devRef .tc Cert.ReferenceIdeal.main_call0_v8) : Cert.KernelIdeal.S840.Idx → EReal)
    = (StableHlo.after (Cert.KernelIdeal.Gen.hostOps0 (F := Ideal)) (Cert.KernelIdeal.Gen.W0 m ρ c) (Proc.devRef .tc Cert.KernelIdeal.main_call0_v8) : Cert.KernelIdeal.S840.Idx → EReal)
  after_results_simp

/-- From memories agreeing on the arguments, every image's rectified convolution is the same in both programs. -/
theorem cv_bridge (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.RefValue.cv m' c = Cert.KernelIdeal.Value.cv m ρ c := by
  funext n
  unfold Cert.ReferenceIdeal.RefValue.cv Cert.KernelIdeal.Value.cv Cert.KernelIdeal.Pool.cvOf
  rw [xflat_bridge m ρ m' c h0, h1, h2, conv_eq]
  rfl

end Cert.Bridge

end
-- ==== Proof.lean ====
/-
  The certificate of a small convolutional network in two tilings.

  The reference runs one grid point per image: the 3 × 3 convolution as one product of the 840 × 576 patch matrix of the
  image's padded plane with the weights, bias and rectifier; global average pooling as the product of the row of pooling
  weights (1/784 on the valid columns, 0 on the two wrap columns of each plane row), broadcast to 8 identical rows, with the
  840 × 256 rectified convolution; then the bottleneck and the classifier on those 8 identical rows, of which row 0 is kept.
  The kernel runs eight images per grid point, stacks their rectified convolutions by rows and pools all eight with ONE
  product by an 8 × 6720 block-diagonal mask `δ (b, k) · base r`; a second region applies the bottleneck and the classifier
  to all 256 pooled rows, 128 per point.

  At the exact values the two are one function of the arguments: the off-diagonal blocks contribute `0 · x = 0` (true on the
  extended reals at the infinities too, so the precondition is never opened), the diagonal block is the reference's pooling
  sum, and the head acts row by row.  `Cert.KernelIdeal.Value.run_value` and `Cert.ReferenceIdeal.RefValue.run_value` read
  both runs' results as `Spec.logitsG` / `Spec.featG`; `Cert.Bridge` matches their ingredients.  The frames are the
  generated ones (the reference's is its value run with the results dropped); the idealization rewrote nothing.
-/
import proofs.«109567_g2000602488113785_pallaspilot1_138_2_alg».proof.Defs
import proofs.«109567_g2000602488113785_pallaspilot1_138_2_alg».proof.Proof.Gen.Kernel
import proofs.«109567_g2000602488113785_pallaspilot1_138_2_alg».proof.Proof.Gen.Kernel.Frame
import proofs.«109567_g2000602488113785_pallaspilot1_138_2_alg».proof.Proof.Gen.KernelIdeal
import proofs.«109567_g2000602488113785_pallaspilot1_138_2_alg».proof.Proof.Gen.KernelIdeal.Frame
import proofs.«109567_g2000602488113785_pallaspilot1_138_2_alg».proof.Proof.Gen.ReferenceIdeal
import proofs.«109567_g2000602488113785_pallaspilot1_138_2_alg».proof.Proof.Gen.ReferenceIdeal.Frame
import proofs.«109567_g2000602488113785_pallaspilot1_138_2_alg».proof.Proof.Gen.Pre_finite_inputs
import proofs.«109567_g2000602488113785_pallaspilot1_138_2_alg».proof.Proof.Bridge

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories agreeing on the arguments both programs end with the network's logits and embedding. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Value.run_value m ρ, ?_⟩
  refine (θ_run Cert.ReferenceIdeal.defs _ _).mono (fun r h c => ?_) (Cert.ReferenceIdeal.RefValue.run_value m' ρ')
  obtain ⟨a0, a1, a2, a3, a4, a5, a6⟩ := hagree c
  refine ⟨(h c).1.trans ?_, (h c).2.1.trans ?_, (h c).2.2⟩
  · rw [Cert.Bridge.cv_bridge m ρ m' c a0 a1 a2, Cert.Bridge.base_bridge m ρ m' c, a3, a4, a5, a6]
  · rw [Cert.Bridge.cv_bridge m ρ m' c a0 a1 a2, Cert.Bridge.base_bridge m ρ m' c, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
